-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x512x128 : Shape := ⟨4, ![1, 256, 512, 128]⟩
abbrev S128 : Shape := ⟨1, ![128]⟩
abbrev S128x128 : Shape := ⟨2, ![128, 128]⟩
abbrev S_ : Shape := ⟨0, ![]⟩

class Facts : Prop where
  bcast_S_S1x256x512x128 : S_.BroadcastsInDim S1x256x512x128 (![] : Fin 0 → Fin S1x256x512x128.rank)
  reducesTo_S1x256x512x128_S_d0_1_2_3 : S1x256x512x128.ReducesTo [0, 1, 2, 3] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S1x256x512x128 .f32) (main_arg1 : FVec F S128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S1x256x512x128 .f32 := Host.absf main_arg0
  let main_cst : FVec F S_ .f32 := constant S_ .f32 0x7F800000#32
  let main_v1 : FVec F S1x256x512x128 .f32 := broadcastInDim S1x256x512x128 ![] bcast_S_S1x256x512x128 main_cst
  let main_v2 : IVec S1x256x512x128 1 := cmpf .olt main_v0 main_v1
  let main_c : IVec S_ 1 := constantI S_ 1 1#1
  let main_v3 : IVec S_ 1 := (fun x v => Host.reduce IntOp.andi x v reducesTo_S1x256x512x128_S_d0_1_2_3 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S1x256x512x128 : Shape := ⟨4, ![1, 256, 512, 128]⟩
abbrev S128 : Shape := ⟨1, ![128]⟩
abbrev S128x128 : Shape := ⟨2, ![128, 128]⟩
abbrev S512x128 : Shape := ⟨2, ![512, 128]⟩
abbrev S1x256x64x128 : Shape := ⟨4, ![1, 256, 64, 128]⟩
abbrev S64x128 : Shape := ⟨2, ![64, 128]⟩
abbrev S1x64x64x128 : Shape := ⟨4, ![1, 64, 64, 128]⟩
abbrev S64x64x128 : Shape := ⟨3, ![64, 64, 128]⟩
abbrev S64x64 : Shape := ⟨2, ![64, 64]⟩
abbrev S64x64x1 : Shape := ⟨3, ![64, 64, 1]⟩
abbrev S1x1x128 : Shape := ⟨3, ![1, 1, 128]⟩
abbrev S1x128 : Shape := ⟨2, ![1, 128]⟩
abbrev S512x512x128 : Shape := ⟨3, ![512, 512, 128]⟩
abbrev S128x128x128 : Shape := ⟨3, ![128, 128, 128]⟩
abbrev S128x1x128 : Shape := ⟨3, ![128, 1, 128]⟩
abbrev S1x128x128 : Shape := ⟨3, ![1, 128, 128]⟩
abbrev S1x512x512x128 : Shape := ⟨4, ![1, 512, 512, 128]⟩

abbrev nBuf : Space → Nat
  | .hbm => 13
  | .vmem => 21
  | .smem => 0
  | _ => 0

abbrev bufTy : (tb : Table) → Fin (tcTables nBuf tb) → BufTy
  | .hbm, ⟨0, _⟩ => ⟨S1x256x512x128, .f32⟩
  | .hbm, ⟨1, _⟩ => ⟨S128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S512x128, .f32⟩
  | .hbm, ⟨10, _⟩ => ⟨S512x128, .f32⟩
  | .hbm, ⟨11, _⟩ => ⟨S512x512x128, .f32⟩
  | .hbm, ⟨12, _⟩ => ⟨S1x512x512x128, .f32⟩
  | .local _ .vmem, ⟨0, _⟩ => ⟨S1x256x64x128, .f32⟩
  | .local _ .vmem, ⟨1, _⟩ => ⟨S1x256x64x128, .f32⟩
  | .local _ .vmem, ⟨2, _⟩ => ⟨S128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128x128, .f32⟩
  | .local _ .vmem, ⟨20, _⟩ => ⟨S128x128x128, .f32⟩
  | _, _ => ⟨S1x256x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32 : BitVec 32 := 64#32
  let v35 : BitVec 32 := Scalar.muli arg13 c64_i32
  v35
def k0_off1 (k0_t1 : Fin k0_t1_loop.trips) : Fin 4 → Nat :=
  let c0_22 : Index := 0#32
  let c0_i32 : BitVec 32 := 0#32
  let c1_i32 : BitVec 32 := 1#32
  let arg13 : BitVec 32 := Scf.iv c0_i32 c1_i32 k0_t1
  let c64_i32 : BitVec 32 := 64#32
  let v35 : BitVec 32 := Scalar.muli arg13 c64_i32
  let v36 : BitVec 32 := v35
  let v37 : Index := Scalar.indexCast v36
  let c0_23 : Index := 0#32
  let c0_24 : Index := 0#32
  ![0, v37.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S64x128_S64x128_0_0 : ∀ a, (![0, 0] : Fin 2 → Nat) a + S64x128.size a ≤ S64x128.size a
  h_S64x128 : 0 < S64x128.numel
  shapeCasts_S64x128_S64x128 : S64x128.ShapeCasts S64x128
  h_S1x64x64x128 : 0 < S1x64x64x128.numel
  shapeCasts_S1x64x64x128_S64x64x128 : S1x64x64x128.ShapeCasts S64x64x128
  reduces_S64x64x128_S64x64 : S64x64x128.Reduces [2] S64x64
  shapeCasts_S64x64_S64x64x1 : S64x64.ShapeCasts S64x64x1
  broadcasts_S64x64x1_S64x64x128 : S64x64x1.Broadcasts S64x64x128
  inb_S128_S128_0 : ∀ a, (![0] : Fin 1 → Nat) a + S128.size a ≤ S128.size a
  h_S128 : 0 < S128.numel
  shapeCasts_S128_S1x1x128 : S128.ShapeCasts S1x1x128
  broadcasts_S1x1x128_S64x64x128 : S1x1x128.Broadcasts S64x64x128
  reduces_S64x64x128_S64x128 : S64x64x128.Reduces [0] S64x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128_S1x128 : S128.ShapeCasts S1x128
  broadcasts_S1x128_S64x128 : S1x128.Broadcasts S64x128
  shapeCasts_S128x128_S128x128 : S128x128.ShapeCasts S128x128
  shapeCasts_S128x128_S128x1x128 : S128x128.ShapeCasts S128x1x128
  shapeCasts_S128x1x128_S128x1x128 : S128x1x128.ShapeCasts S128x1x128
  broadcasts_S128x1x128_S128x128x128 : S128x1x128.Broadcasts S128x128x128
  shapeCasts_S128x128_S1x128x128 : S128x128.ShapeCasts S1x128x128
  shapeCasts_S1x128x128_S1x128x128 : S1x128x128.ShapeCasts S1x128x128
  broadcasts_S1x128x128_S128x128x128 : S1x128x128.Broadcasts S128x128x128
  inb_S128x128x128_S128x128x128_0_0_0 : ∀ a, (![0, 0, 0] : Fin 3 → Nat) a + S128x128x128.size a ≤ S128x128x128.size a
  h_S128x128x128 : 0 < S128x128x128.numel
  shapeCasts_S512x512x128_S1x512x512x128 : S512x512x128.ShapeCasts S1x512x512x128
  dot_S64x128_S128x128_S64x128_1_0_0_1_n_n_wf : DotDims.WF S64x128 S128x128 S64x128 [1] [0] [0] [1] [] []
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S1x64x64x128.size a ≤ S1x256x64x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64x128.size a ≤ S1x256x512x128.size a
  hwx0_0 : ∀ i : grid0.Coords, EltTy.bits .f32 = 32 ∨ (Rect.block (s := S1x256x512x128) S1x256x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S512x128.size a
  hwx0_9 : ∀ i : grid0.Coords, EltTy.bits .f32 = 32 ∨ (Rect.block (s := S512x128) S64x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x128.size a ≤ S512x128.size a
  hwx0_10 : ∀ i : grid0.Coords, EltTy.bits .f32 = 32 ∨ (Rect.block (s := S512x128) S64x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S512x128.size a
  hwx1_0 : ∀ i : grid1.Coords, EltTy.bits .f32 = 32 ∨ (Rect.block (s := S512x128) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x128.size a
  hwx1_1 : ∀ i : grid1.Coords, EltTy.bits .f32 = 32 ∨ (Rect.block (s := S512x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128x128.size a ≤ S512x512x128.size a
  hwx1_2 : ∀ i : grid1.Coords, EltTy.bits .f32 = 32 ∨ (Rect.block (s := S512x512x128) S128x128x128.size (cc1_transform_2 i) (hinb1_2 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S1x256x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S64x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S64x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v0_0) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x256x512x128 : Shape := ⟨4, ![1, 256, 512, 128]⟩
abbrev S128 : Shape := ⟨1, ![128]⟩
abbrev S128x128 : Shape := ⟨2, ![128, 128]⟩
abbrev S_ : Shape := ⟨0, ![]⟩
abbrev S1x256x512 : Shape := ⟨3, ![1, 256, 512]⟩
abbrev S1x256x512x1 : Shape := ⟨4, ![1, 256, 512, 1]⟩
abbrev S1x1x1x128 : Shape := ⟨4, ![1, 1, 1, 128]⟩
abbrev S1x512x128 : Shape := ⟨3, ![1, 512, 128]⟩
abbrev S1x512x1x128 : Shape := ⟨4, ![1, 512, 1, 128]⟩
abbrev S1x1x512x128 : Shape := ⟨4, ![1, 1, 512, 128]⟩
abbrev S1x512x512x128 : Shape := ⟨4, ![1, 512, 512, 128]⟩

abbrev nBuf : Space → Nat
  | .hbm => 65
  | .vmem => 0
  | .smem => 0
  | _ => 0

abbrev bufTy : (tb : Table) → Fin (tcTables nBuf tb) → BufTy
  | .hbm, ⟨0, _⟩ => ⟨S1x256x512x128, .f32⟩
  | .hbm, ⟨1, _⟩ => ⟨S128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1x256x512, .f32⟩
  | .hbm, ⟨11, _⟩ => ⟨S1x256x512x1, .f32⟩
  | .hbm, ⟨12, _⟩ => ⟨S_, .f32⟩
  | .hbm, ⟨13, _⟩ => ⟨S1x256x512x1, .f32⟩
  | .hbm, ⟨14, _⟩ => ⟨S1x256x512x1, .f32⟩
  | .hbm, ⟨15, _⟩ => ⟨S1x256x512x128, .f32⟩
  | .hbm, ⟨16, _⟩ => ⟨S1x256x512x128, .f32⟩
  | .hbm, ⟨17, _⟩ => ⟨S1x256x512x128, .f32⟩
  | .hbm, ⟨18, _⟩ => ⟨S_, .f32⟩
  | .hbm, ⟨19, _⟩ => ⟨S1x256x512, .f32⟩
  | .hbm, ⟨20, _⟩ => ⟨S1x256x512x1, .f32⟩
  | .hbm, ⟨21, _⟩ => ⟨S_, .f32⟩
  | .hbm, ⟨22, _⟩ => ⟨S1x256x512x1, .f32⟩
  | .hbm, ⟨23, _⟩ => ⟨S1x256x512x1, .f32⟩
  | .hbm, ⟨24, _⟩ => ⟨S1x256x512x128, .f32⟩
  | .hbm, ⟨25, _⟩ => ⟨S1x256x512x128, .f32⟩
  | .hbm, ⟨26, _⟩ => ⟨S_, .f32⟩
  | .hbm, ⟨27, _⟩ => ⟨S1x256x512x1, .f32⟩
  | .hbm, ⟨28, _⟩ => ⟨S1x256x512x1, .f32⟩
  | .hbm, ⟨29, _⟩ => ⟨S1x256x512x1, .f32⟩
  | .hbm, ⟨30, _⟩ => ⟨S1x256x512x128, .f32⟩
  | .hbm, ⟨31, _⟩ => ⟨S1x256x512x128, .f32⟩
  | .hbm, ⟨32, _⟩ => ⟨S1x1x1x128, .f32⟩
  | .hbm, ⟨33, _⟩ => ⟨S1x256x512x128, .f32⟩
  | .hbm, ⟨34, _⟩ => ⟨S1x256x512x128, .f32⟩
  | .hbm, ⟨35, _⟩ => ⟨S1x1x1x128, .f32⟩
  | .hbm, ⟨36, _⟩ => ⟨S1x256x512x128, .f32⟩
  | .hbm, ⟨37, _⟩ => ⟨S1x256x512x128, .f32⟩
  | .hbm, ⟨38, _⟩ => ⟨S1x256x512x128, .f32⟩
  | .hbm, ⟨39, _⟩ => ⟨S1x1x1x128, .f32⟩
  | .hbm, ⟨40, _⟩ => ⟨S1x256x512x128, .f32⟩
  | .hbm, ⟨41, _⟩ => ⟨S1x256x512x128, .f32⟩
  | .hbm, ⟨42, _⟩ => ⟨S1x256x512x128, .f32⟩
  | .hbm, ⟨43, _⟩ => ⟨S1x1x1x128, .f32⟩
  | .hbm, ⟨44, _⟩ => ⟨S1x256x512x128, .f32⟩
  | .hbm, ⟨45, _⟩ => ⟨S1x256x512x128, .f32⟩
  | .hbm, ⟨46, _⟩ => ⟨S_, .f32⟩
  | .hbm, ⟨47, _⟩ => ⟨S1x512x128, .f32⟩
  | .hbm, ⟨48, _⟩ => ⟨S_, .f32⟩
  | .hbm, ⟨49, _⟩ => ⟨S1x512x128, .f32⟩
  | .hbm, ⟨50, _⟩ => ⟨S1x512x128, .f32⟩
  | .hbm, ⟨51, _⟩ => ⟨S_, .f32⟩
  | .hbm, ⟨52, _⟩ => ⟨S1x512x128, .f32⟩
  | .hbm, ⟨53, _⟩ => ⟨S_, .f32⟩
  | .hbm, ⟨54, _⟩ => ⟨S1x512x128, .f32⟩
  | .hbm, ⟨55, _⟩ => ⟨S1x512x128, .f32⟩
  | .hbm, ⟨56, _⟩ => ⟨S1x512x1x128, .f32⟩
  | .hbm, ⟨57, _⟩ => ⟨S1x1x512x128, .f32⟩
  | .hbm, ⟨58, _⟩ => ⟨S1x512x512x128, .f32⟩
  | .hbm, ⟨59, _⟩ => ⟨S1x512x512x128, .f32⟩
  | .hbm, ⟨60, _⟩ => ⟨S1x512x512x128, .f32⟩
  | .hbm, ⟨61, _⟩ => ⟨S1x512x512x128, .f32⟩
  | .hbm, ⟨62, _⟩ => ⟨S1x1x1x128, .f32⟩
  | .hbm, ⟨63, _⟩ => ⟨S1x512x512x128, .f32⟩
  | .hbm, ⟨64, _⟩ => ⟨S1x512x512x128, .f32⟩
  | _, _ => ⟨S1x256x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  reducesTo_S1x256x512x128_S1x256x512_d3 : S1x256x512x128.ReducesTo [3] S1x256x512
  h_S_ : 0 < S_.numel
  bcast_S1x256x512_S1x256x512x1_0_1_2 : S1x256x512.BroadcastsInDim S1x256x512x1 (![0, 1, 2] : Fin 3 → Fin S1x256x512x1.rank)
  bcast_S_S1x256x512x1 : S_.BroadcastsInDim S1x256x512x1 (![] : Fin 0 → Fin S1x256x512x1.rank)
  bcast_S1x256x512x1_S1x256x512x128_0_1_2_3 : S1x256x512x1.BroadcastsInDim S1x256x512x128 (![0, 1, 2, 3] : Fin 4 → Fin S1x256x512x128.rank)
  bcast_S128_S1x1x1x128_3 : S128.BroadcastsInDim S1x1x1x128 (![3] : Fin 1 → Fin S1x1x1x128.rank)
  bcast_S1x1x1x128_S1x256x512x128_0_1_2_3 : S1x1x1x128.BroadcastsInDim S1x256x512x128 (![0, 1, 2, 3] : Fin 4 → Fin S1x256x512x128.rank)
  reducesTo_S1x256x512x128_S1x512x128_d1 : S1x256x512x128.ReducesTo [1] S1x512x128
  bcast_S_S1x512x128 : S_.BroadcastsInDim S1x512x128 (![] : Fin 0 → Fin S1x512x128.rank)
  bcast_S1x512x128_S1x512x1x128_0_1_3 : S1x512x128.BroadcastsInDim S1x512x1x128 (![0, 1, 3] : Fin 3 → Fin S1x512x1x128.rank)
  bcast_S1x512x128_S1x1x512x128_0_2_3 : S1x512x128.BroadcastsInDim S1x1x512x128 (![0, 2, 3] : Fin 3 → Fin S1x1x512x128.rank)
  bcast_S1x512x1x128_S1x512x512x128_0_1_2_3 : S1x512x1x128.BroadcastsInDim S1x512x512x128 (![0, 1, 2, 3] : Fin 4 → Fin S1x512x512x128.rank)
  bcast_S1x1x512x128_S1x512x512x128_0_1_2_3 : S1x1x512x128.BroadcastsInDim S1x512x512x128 (![0, 1, 2, 3] : Fin 4 → Fin S1x512x512x128.rank)
  bcast_S1x1x1x128_S1x512x512x128_0_1_2_3 : S1x1x1x128.BroadcastsInDim S1x512x512x128 (![0, 1, 2, 3] : Fin 4 → Fin S1x512x512x128.rank)
  dot_S1x256x512x128_S128x128_S1x256x512x128_3_0_012_1_n_n_wf : DotDims.WF S1x256x512x128 S128x128 S1x256x512x128 [3] [0] [0, 1, 2] [1] [] []
  dot_S1x512x512x128_S128x128_S1x512x512x128_3_0_012_1_n_n_wf : DotDims.WF S1x512x512x128 S128x128 S1x512x512x128 [3] [0] [0, 1, 2] [1] [] []

variable [Facts₀]

def dot_S1x256x512x128_S128x128_S1x256x512x128_3_0_012_1_n_n : DotDims S1x256x512x128 S128x128 S1x256x512x128 where
  lhsContracting := [3]
  rhsContracting := [0]
  lhsNonContracting := [0, 1, 2]
  rhsNonContracting := [1]
  lhsBatch := []
  rhsBatch := []
  wf := dot_S1x256x512x128_S128x128_S1x256x512x128_3_0_012_1_n_n_wf
def dot_S1x512x512x128_S128x128_S1x512x512x128_3_0_012_1_n_n : DotDims S1x512x512x128 S128x128 S1x512x512x128 where
  lhsContracting := [3]
  rhsContracting := [0]
  lhsNonContracting := [0, 1, 2]
  rhsNonContracting := [1]
  lhsBatch := []
  rhsBatch := []
  wf := dot_S1x512x512x128_S128x128_S1x512x512x128_3_0_012_1_n_n_wf

class Facts : Prop extends Facts₀ where

variable [Facts]
-- ==== Proof.Spec.lean ====
/-
  The mathematics of the certificate, with no program in sight.

  Inputs: a stack `X m i d` of 256 matrices of 512 rows and 128 columns, a LayerNorm gain `g` and shift `b`
  over the columns, two projections `Wl`, `Wr` (128 × 128) with biases `bl`, `br`, and an output map `Wo`
  with bias `bo`. Everything is an extended real.

  LayerNorm, shared by both sides: each row `X m i ·` is centred at its mean `mu`, scaled by
  `rsqrt (var + ε)` of its variance, then by the gain, and shifted: `xn m i d`.

  The reference's arrangement: project every normalised row (`∑ d, xn m i d · W d h + bias h`), average the
  256 projections of row `i` by a quotient by 256 (`projRef`), add the left average of row `i` to the right
  average of row `j`, and map the sum through `Wo`, adding `bo` (`refOut i j d`).

  The kernel's arrangement: first sum the normalised rows over `m` in four consecutive chunks of 64 into an
  accumulator that starts at zero (`acc`), scale by the word `2⁻⁸` (`meanK`), project the mean row
  (`projK`), map each projection through `Wo` separately — the left one with `bo` added (`kerL`), the right
  one without (`kerR`) — and add the two: `kerOut i j d = kerL i d + kerR j d`.

  The two agree on finite inputs because every step is linear in the normalised rows and `2⁻⁸ = 1/256`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## The four float words of the two programs, as extended reals -/

/-- `128.0`: the divisor of a row's mean and variance, on both sides. -/
abbrev w128 : EReal := Ideal.ofBits .f32 0x43000000#32
/-- `256.0`: the reference's divisor of the average over the stack. -/
abbrev w256 : EReal := Ideal.ofBits .f32 0x43800000#32
/-- `2⁻⁸`: the kernel's factor for the same average. -/
abbrev wInv256 : EReal := Ideal.ofBits .f32 0x3B800000#32
/-- The f32 nearest `1e-5`: LayerNorm's ε, the same word on both sides. -/
abbrev wEps : EReal := Ideal.ofBits .f32 0x3727C5AC#32

section Coordinates

variable (X : Fin 256 → Fin 512 → Fin 128 → EReal) (g b : Fin 128 → EReal)

/-- The mean of row `(m, i)`. -/
def mu (m : Fin 256) (i : Fin 512) : EReal := Ideal.div (∑ d : Fin 128, X m i d) w128

/-- The variance of row `(m, i)`: the mean of the squared centred entries. -/
def var (m : Fin 256) (i : Fin 512) : EReal :=
  Ideal.div (∑ d : Fin 128, (X m i d - mu X m i) * (X m i d - mu X m i)) w128

/-- The normalised entry: centred, scaled by `rsqrt (var + ε)`, then by the gain, then shifted. -/
def xn (m : Fin 256) (i : Fin 512) (d : Fin 128) : EReal :=
  (X m i d - mu X m i) * Ideal.rsqrt (var X m i + wEps) * g d + b d

variable (W : Fin 128 → Fin 128 → EReal) (bias : Fin 128 → EReal)

/-- The reference: project every normalised row, then average the 256 projections by a quotient. -/
def projRef (i : Fin 512) (h : Fin 128) : EReal :=
  Ideal.div (∑ m : Fin 256, (∑ d : Fin 128, xn X g b m i d * W d h + bias h)) w256

/-- The kernel's `k`-th chunk of 64 consecutive matrices of the stack, summed. -/
def chunkSum (k : Fin 4) (i : Fin 512) (d : Fin 128) : EReal :=
  ∑ r : Fin 64, xn X g b ⟨64 * k.val + r.val, by omega⟩ i d

/-- The kernel's accumulator after its four trips, from zero. -/
def acc (i : Fin 512) (d : Fin 128) : EReal :=
  (((0 + chunkSum X g b 0 i d) + chunkSum X g b 1 i d) + chunkSum X g b 2 i d) + chunkSum X g b 3 i d

/-- The kernel's mean normalised row: the accumulator times `2⁻⁸`. -/
def meanK (i : Fin 512) (d : Fin 128) : EReal := acc X g b i d * wInv256

/-- The kernel: project the mean row. -/
def projK (i : Fin 512) (h : Fin 128) : EReal := ∑ d : Fin 128, meanK X g b i d * W d h + bias h

end Coordinates

section Outputs

variable (X : Fin 256 → Fin 512 → Fin 128 → EReal) (g b : Fin 128 → EReal)
  (Wl : Fin 128 → Fin 128 → EReal) (bl : Fin 128 → EReal) (Wr : Fin 128 → Fin 128 → EReal) (br : Fin 128 → EReal)
  (Wo : Fin 128 → Fin 128 → EReal) (bo : Fin 128 → EReal)

/-- The reference's result at `(i, j, d)`. -/
def refOut (i j : Fin 512) (d : Fin 128) : EReal :=
  ∑ h : Fin 128, (projRef X g b Wl bl i h + projRef X g b Wr br j h) * Wo h d + bo d

/-- The kernel's first intermediate array: the left projection through `Wo`, with `bo` added. -/
def kerL (i : Fin 512) (d : Fin 128) : EReal := ∑ h : Fin 128, projK X g b Wl bl i h * Wo h d + bo d

/-- The kernel's second intermediate array: the right projection through `Wo`. -/
def kerR (j : Fin 512) (d : Fin 128) : EReal := ∑ h : Fin 128, projK X g b Wr br j h * Wo h d

/-- The kernel's result at `(i, j, d)`. -/
def kerOut (i j : Fin 512) (d : Fin 128) : EReal := kerL X g b Wl bl Wo bo i d + kerR X g b Wr br Wo j d

end Outputs

/-! ## The same over arrays of the programs' literal shapes -/

abbrev ArrX := (⟨4, ![1, 256, 512, 128]⟩ : Shape).Idx → EReal
abbrev ArrV := (⟨1, ![128]⟩ : Shape).Idx → EReal
abbrev ArrW := (⟨2, ![128, 128]⟩ : Shape).Idx → EReal
abbrev ArrLR := (⟨2, ![512, 128]⟩ : Shape).Idx → EReal
abbrev ArrOut3 := (⟨3, ![512, 512, 128]⟩ : Shape).Idx → EReal
abbrev ArrOut := (⟨4, ![1, 512, 512, 128]⟩ : Shape).Idx → EReal

/-- The stack read by coordinates (its leading axis has one entry). -/
def cX (x : ArrX) : Fin 256 → Fin 512 → Fin 128 → EReal := fun m i d => x (ix4 (0 : Fin 1) m i d)
/-- A vector read by its coordinate. -/
def cV (v : ArrV) : Fin 128 → EReal := fun d => v (ix1 d)
/-- A matrix read by its coordinates. -/
def cW (w : ArrW) : Fin 128 → Fin 128 → EReal := fun a c => w (ix2 a c)

variable (x : ArrX) (g b : ArrV) (wl : ArrW) (bl : ArrV) (wr : ArrW) (br : ArrV) (wo : ArrW) (bo : ArrV)

/-- The reference's result array. -/
def refArr : ArrOut := fun q =>
  refOut (cX x) (cV g) (cV b) (cW wl) (cV bl) (cW wr) (cV br) (cW wo) (cV bo)
    ⟨(q 1).val, (q 1).isLt⟩ ⟨(q 2).val, (q 2).isLt⟩ ⟨(q 3).val, (q 3).isLt⟩

/-- The kernel's first intermediate array, `[512, 128]`. -/
def kerLArr : ArrLR := fun p =>
  kerL (cX x) (cV g) (cV b) (cW wl) (cV bl) (cW wo) (cV bo) ⟨(p 0).val, (p 0).isLt⟩ ⟨(p 1).val, (p 1).isLt⟩

/-- The kernel's second intermediate array, `[512, 128]`. -/
def kerRArr : ArrLR := fun p =>
  kerR (cX x) (cV g) (cV b) (cW wr) (cV br) (cW wo) ⟨(p 0).val, (p 0).isLt⟩ ⟨(p 1).val, (p 1).isLt⟩

/-- The broadcast sum of two `[512, 128]` arrays: `L i d + R j d` at `(i, j, d)`. -/
def bsum3 (L R : ArrLR) : ArrOut3 := fun q =>
  L (ix2 (⟨(q 0).val, (q 0).isLt⟩ : Fin 512) (⟨(q 2).val, (q 2).isLt⟩ : Fin 128))
    + R (ix2 (⟨(q 1).val, (q 1).isLt⟩ : Fin 512) (⟨(q 2).val, (q 2).isLt⟩ : Fin 128))

/-- The same with the unit leading axis the result carries. -/
def bsum4 (L R : ArrLR) : ArrOut := fun q =>
  L (ix2 (⟨(q 1).val, (q 1).isLt⟩ : Fin 512) (⟨(q 3).val, (q 3).isLt⟩ : Fin 128))
    + R (ix2 (⟨(q 2).val, (q 2).isLt⟩ : Fin 512) (⟨(q 3).val, (q 3).isLt⟩ : Fin 128))

/-- The kernel's result array. -/
def kerArr : ArrOut := fun q =>
  kerOut (cX x) (cV g) (cV b) (cW wl) (cV bl) (cW wr) (cV br) (cW wo) (cV bo)
    ⟨(q 1).val, (q 1).isLt⟩ ⟨(q 2).val, (q 2).isLt⟩ ⟨(q 3).val, (q 3).isLt⟩

/-- The kernel's result is the broadcast sum of its two intermediate arrays. -/
theorem kerArr_eq_bsum4 :
    kerArr x g b wl bl wr br wo bo = bsum4 (kerLArr x g b wl bl wo bo) (kerRArr x g b wr br wo) := rfl

end Cert.Spec

end
-- ==== Proof.RefValue.lean ====
/-
  The reference is the specification's array.

  The reference program's value, read one element at a time, is the formula of the specification: every row of
  the stack is centred at its mean and scaled by the reciprocal square root of its variance plus ε, then by the gain,
  and shifted; the normalised rows are projected twice and the 256 projections of a row are averaged by a quotient;
  the left average of row `i` and the right average of row `j` are added and mapped through the output matrix, and
  the output bias is added. Each lemma below reads one of these stages at an index given by its coordinates; a float
  sum starts from the zero word, which is the extended real `0`, and the only work is to see that the index each
  operation reads its operand at is the expected tuple of coordinates.
-/
import proofs.«169147_j1915555414566_2_alg».proof.Proof.Gen.ReferenceIdeal.Read
import proofs.«169147_j1915555414566_2_alg».proof.Proof.Spec
import Idealize.ShloMosaic.Lib.ValueIdx
import Idealize.ShloMosaic.PureOps.Ideal.Laws

noncomputable section

namespace Cert.RefValue

open Idealize.ShloMosaic Idealize.ShloMosaic.ValueIdx Cert.ReferenceIdeal Cert.ReferenceIdeal.Read Cert.Spec

/-- Two indices of rank four agree when their four coordinates do. -/
local macro "idx4_rfl" : tactic => `(tactic| exact funext fun a => Fin.ext (by
  match a with | ⟨0, _⟩ => rfl | ⟨1, _⟩ => rfl | ⟨2, _⟩ => rfl | ⟨3, _⟩ => rfl))
local macro "idx3_rfl" : tactic => `(tactic| exact funext fun a => Fin.ext (by
  match a with | ⟨0, _⟩ => rfl | ⟨1, _⟩ => rfl | ⟨2, _⟩ => rfl))
local macro "idx2_rfl" : tactic => `(tactic| exact funext fun a => Fin.ext (by
  match a with | ⟨0, _⟩ => rfl | ⟨1, _⟩ => rfl))
local macro "idx1_rfl" : tactic => `(tactic| exact funext fun a => Fin.ext (by
  match a with | ⟨0, _⟩ => rfl))

section Rows

variable (x0 : (⟨S1x256x512x128, .f32⟩ : BufTy).Contents (Elt Ideal))
  (x1 x2 : (⟨S128, .f32⟩ : BufTy).Contents (Elt Ideal))

theorem mean_at (m : Fin 256) (i : Fin 512) (z : Fin 1) :
    val_main_v3 (F := Ideal) x0 (ix4 (0 : Fin 1) m i z) = mu (cX x0) m i := by
  rw [val_main_v3_apply, val_main_v1_apply, val_main_v0_apply, val_main_v2_apply, val_main_cst_0_apply, val_main_cst_apply]
  simp only [Ideal.hostDivf_def, Ideal.ofBits_def, Ideal.ofBits_zero_f32, zero_add]
  unfold mu cX
  refine congrArg (Ideal.div · w128) (Finset.sum_congr rfl fun k _ => congrArg x0 ?_)
  idx4_rfl

theorem var_at (m : Fin 256) (i : Fin 512) (z : Fin 1) :
    val_main_v10 (F := Ideal) x0 (ix4 (0 : Fin 1) m i z) = var (cX x0) m i := by
  rw [val_main_v10_apply, val_main_v8_apply, val_main_v7_apply, val_main_v9_apply, val_main_cst_2_apply, val_main_cst_1_apply]
  simp only [Ideal.hostDivf_def, Ideal.ofBits_def, Ideal.ofBits_zero_f32, zero_add]
  unfold var
  refine congrArg (Ideal.div · w128) (Finset.sum_congr rfl fun k _ => ?_)
  have hJ : idx_main_v7 (idx_main_v8 (ix4 (0 : Fin 1) m i z)) k = ix4 (0 : Fin 1) m i k := by idx4_rfl
  have hI : idx_main_v4 (ix4 (0 : Fin 1) m i k) = ix4 (0 : Fin 1) m i (0 : Fin 1) := by idx4_rfl
  rw [hJ, val_main_v6_apply, val_main_v5_apply, val_main_v4_apply, hI, mean_at]
  rfl

theorem xn_at (m : Fin 256) (i : Fin 512) (d : Fin 128) :
    val_main_v23 (F := Ideal) x0 x1 x2 (ix4 (0 : Fin 1) m i d) = xn (cX x0) (cV x1) (cV x2) m i d := by
  have h11 : idx_main_v11 (ix4 (0 : Fin 1) m i d) = ix4 (0 : Fin 1) m i (0 : Fin 1) := by idx4_rfl
  have h16 : idx_main_v16 (ix4 (0 : Fin 1) m i d) = ix4 (0 : Fin 1) m i (0 : Fin 1) := by idx4_rfl
  have h18 : idx_main_v18 (idx_main_v19 (ix4 (0 : Fin 1) m i d)) = ix1 d := by idx1_rfl
  have h21 : idx_main_v21 (idx_main_v22 (ix4 (0 : Fin 1) m i d)) = ix1 d := by idx1_rfl
  rw [val_main_v23_apply, val_main_v20_apply, val_main_v17_apply, val_main_v12_apply, val_main_v11_apply, h11, mean_at,
    val_main_v16_apply, h16, val_main_v15_apply, val_main_v14_apply, var_at, val_main_v13_apply, val_main_cst_3_apply,
    val_main_v19_apply, val_main_v18_apply, h18, val_main_v22_apply, val_main_v21_apply, h21]
  rfl

end Rows

section Projections

variable (x0 : (⟨S1x256x512x128, .f32⟩ : BufTy).Contents (Elt Ideal))
  (x1 x2 : (⟨S128, .f32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))

/-- One row's left projection with its bias. -/
theorem rowL_at (m : Fin 256) (i : Fin 512) (h : Fin 128) :
    val_main_v27 (F := Ideal) x0 x1 x2 x3 x4 (ix4 (0 : Fin 1) m i h)
      = ∑ d : Fin 128, xn (cX x0) (cV x1) (cV x2) m i d * cW x3 d h + cV x4 h := by
  have h25 : idx_main_v25 (idx_main_v26 (ix4 (0 : Fin 1) m i h)) = ix1 h := by idx1_rfl
  rw [val_main_v27_apply, val_main_v24_apply, val_main_v26_apply, val_main_v25_apply, h25]
  refine congrArg (· + x4 (ix1 h)) (Finset.sum_congr rfl fun k _ => ?_)
  have hl : lidx_main_v24 (ix4 (0 : Fin 1) m i h) k = ix4 (0 : Fin 1) m i k := by idx4_rfl
  have hr : ridx_main_v24 (ix4 (0 : Fin 1) m i h) k = ix2 k h := by idx2_rfl
  rw [hl, hr, xn_at]
  rfl

/-- One row's right projection with its bias. -/
theorem rowR_at (m : Fin 256) (i : Fin 512) (h : Fin 128) :
    val_main_v31 (F := Ideal) x0 x1 x2 x5 x6 (ix4 (0 : Fin 1) m i h)
      = ∑ d : Fin 128, xn (cX x0) (cV x1) (cV x2) m i d * cW x5 d h + cV x6 h := by
  have h29 : idx_main_v29 (idx_main_v30 (ix4 (0 : Fin 1) m i h)) = ix1 h := by idx1_rfl
  rw [val_main_v31_apply, val_main_v28_apply, val_main_v30_apply, val_main_v29_apply, h29]
  refine congrArg (· + x6 (ix1 h)) (Finset.sum_congr rfl fun k _ => ?_)
  have hl : lidx_main_v28 (ix4 (0 : Fin 1) m i h) k = ix4 (0 : Fin 1) m i k := by idx4_rfl
  have hr : ridx_main_v28 (ix4 (0 : Fin 1) m i h) k = ix2 k h := by idx2_rfl
  rw [hl, hr, xn_at]
  rfl

/-- The left projection averaged over the stack. -/
theorem projL_at (i : Fin 512) (h : Fin 128) :
    val_main_v34 (F := Ideal) x0 x1 x2 x3 x4 (ix3 (0 : Fin 1) i h)
      = projRef (cX x0) (cV x1) (cV x2) (cW x3) (cV x4) i h := by
  rw [val_main_v34_apply, val_main_v32_apply, val_main_v33_apply, val_main_cst_5_apply, val_main_cst_4_apply]
  simp only [Ideal.hostDivf_def, Ideal.ofBits_def, Ideal.ofBits_zero_f32, zero_add]
  unfold projRef
  refine congrArg (Ideal.div · w256) (Finset.sum_congr rfl fun k _ => ?_)
  have hJ : idx_main_v32 (ix3 (0 : Fin 1) i h) k = ix4 (0 : Fin 1) k i h := by idx4_rfl
  rw [hJ, rowL_at]

/-- The right projection averaged over the stack. -/
theorem projR_at (i : Fin 512) (h : Fin 128) :
    val_main_v37 (F := Ideal) x0 x1 x2 x5 x6 (ix3 (0 : Fin 1) i h)
      = projRef (cX x0) (cV x1) (cV x2) (cW x5) (cV x6) i h := by
  rw [val_main_v37_apply, val_main_v35_apply, val_main_v36_apply, val_main_cst_7_apply, val_main_cst_6_apply]
  simp only [Ideal.hostDivf_def, Ideal.ofBits_def, Ideal.ofBits_zero_f32, zero_add]
  unfold projRef
  refine congrArg (Ideal.div · w256) (Finset.sum_congr rfl fun k _ => ?_)
  have hJ : idx_main_v35 (ix3 (0 : Fin 1) i h) k = ix4 (0 : Fin 1) k i h := by idx4_rfl
  rw [hJ, rowR_at]

end Projections

section Output

variable (x0 : (⟨S1x256x512x128, .f32⟩ : BufTy).Contents (Elt Ideal))
  (x1 x2 : (⟨S128, .f32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))

/-- The reference's result at coordinates. -/
theorem out_at (i j : Fin 512) (d : Fin 128) :
    val_main_v46 (F := Ideal) x0 x1 x2 x3 x4 x5 x6 x7 x8 (ix4 (0 : Fin 1) i j d)
      = refOut (cX x0) (cV x1) (cV x2) (cW x3) (cV x4) (cW x5) (cV x6) (cW x7) (cV x8) i j d := by
  have h44 : idx_main_v44 (idx_main_v45 (ix4 (0 : Fin 1) i j d)) = ix1 d := by idx1_rfl
  rw [val_main_v46_apply, val_main_v43_apply, val_main_v45_apply, val_main_v44_apply, h44]
  unfold refOut
  refine congrArg (· + x8 (ix1 d)) (Finset.sum_congr rfl fun k _ => ?_)
  have hl : lidx_main_v43 (ix4 (0 : Fin 1) i j d) k = ix4 (0 : Fin 1) i j k := by idx4_rfl
  have hr : ridx_main_v43 (ix4 (0 : Fin 1) i j d) k = ix2 k d := by idx2_rfl
  have h38 : idx_main_v38 (idx_main_v40 (ix4 (0 : Fin 1) i j k)) = ix3 (0 : Fin 1) i k := by idx3_rfl
  have h39 : idx_main_v39 (idx_main_v41 (ix4 (0 : Fin 1) i j k)) = ix3 (0 : Fin 1) j k := by idx3_rfl
  rw [hl, hr, val_main_v42_apply, val_main_v40_apply, val_main_v38_apply, h38, projL_at,
    val_main_v41_apply, val_main_v39_apply, h39, projR_at]
  rfl

/-- The reference program's result array is the specification's. -/
theorem ref_is_spec :
    val_main_v46 (F := Ideal) x0 x1 x2 x3 x4 x5 x6 x7 x8 = refArr x0 x1 x2 x3 x4 x5 x6 x7 x8 := by
  funext q
  have hq : q = ix4 (0 : Fin 1) (⟨(q 1).val, (q 1).isLt⟩ : Fin 512) (⟨(q 2).val, (q 2).isLt⟩ : Fin 512)
      (⟨(q 3).val, (q 3).isLt⟩ : Fin 128) := funext fun a => Fin.ext (by
    match a with
    | ⟨0, _⟩ => exact Nat.lt_one_iff.mp (q 0).isLt
    | ⟨1, _⟩ => rfl
    | ⟨2, _⟩ => rfl
    | ⟨3, _⟩ => rfl)
  exact (congrArg (val_main_v46 (F := Ideal) x0 x1 x2 x3 x4 x5 x6 x7 x8) hq).trans
    (out_at x0 x1 x2 x3 x4 x5 x6 x7 x8 ⟨(q 1).val, (q 1).isLt⟩ ⟨(q 2).val, (q 2).isLt⟩ ⟨(q 3).val, (q 3).isLt⟩)

end Output

end Cert.RefValue

end
-- ==== Proof.Words.lean ====
/-
  The four float words of the certificate, as the reals their bit patterns denote.

  `0x43000000` is `128`, `0x43800000` is `256`, `0x3B800000` is `2⁻⁸ = 1/256`, and `0x3727C5AC`
  (the single-precision number nearest `10⁻⁵`) is some strictly positive real: that is all LayerNorm's ε is
  ever asked for.
-/
import proofs.«169147_j1915555414566_2_alg».proof.Proof.Spec

noncomputable section

namespace Cert.Spec

open Idealize.ShloMosaic

/-- The word `128.0` denotes the real `128`. -/
theorem w128_eq : w128 = ((128 : ℝ) : EReal) := by
  simp [w128, Ideal.ofBits, Ideal.ieee, -EReal.coe_mul]; norm_num

/-- The word `256.0` denotes the real `256`. -/
theorem w256_eq : w256 = ((256 : ℝ) : EReal) := by
  simp [w256, Ideal.ofBits, Ideal.ieee, -EReal.coe_mul]; norm_num

/-- The word `2⁻⁸` denotes the real `1/256`. -/
theorem wInv256_eq : wInv256 = ((1 / 256 : ℝ) : EReal) := by
  simp [wInv256, Ideal.ofBits, Ideal.ieee, -EReal.coe_mul]; norm_num

/-- LayerNorm's ε denotes a strictly positive real. -/
theorem wEps_pos : ∃ e : ℝ, 0 < e ∧ wEps = (e : EReal) := by
  refine ⟨(10995116 : ℝ) * (2 : ℝ) ^ (-40 : ℤ), by positivity, ?_⟩
  simp [wEps, Ideal.ofBits, Ideal.ieee, -EReal.coe_mul]

end Cert.Spec

end
-- ==== Proof.Algebra.lean ====
/-
  The algebra that joins the two arrangements of the certificate.

  On finite inputs every quantity of Proof/Spec.lean is the coercion of a real number: the mean and the
  variance of a row are quotients by the real `128`, the variance is a mean of squares and so is `≥ 0`, the
  ε added to it is strictly positive, so `rsqrt` is taken at a strictly positive real and is real; the
  normalised entry is then a real polynomial in real quantities. From there on both arrangements are real
  linear algebra in the normalised rows: the accumulator's four chunks of 64 add up to the whole sum over the
  stack, averaging by the factor `1/256` before a projection equals averaging by the quotient by `256` after it
  (the bias, summed 256 times and divided by 256, comes back unchanged), and the output map distributes over
  the sum of the left and the right projection.
-/
import proofs.«169147_j1915555414566_2_alg».proof.Proof.Words

noncomputable section

namespace Cert.Spec

open Idealize.ShloMosaic Idealize.ShloMosaic.ValueIdx

/-! ## Two general facts about finite sums -/

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A sum over `256` consecutive indices is the sum of its four consecutive chunks of `64`. -/
theorem sum_chunks {M : Type*} [AddCommMonoid M] (f : Fin 256 → M) :
    ∑ m : Fin 256, f m = ∑ k : Fin 4, ∑ r : Fin 64, f ⟨64 * k.val + r.val, by omega⟩ := by
  have h := Fintype.sum_equiv (finProdFinEquiv (m := 4) (n := 64))
    (fun x : Fin 4 × Fin 64 => f ⟨64 * x.1.val + x.2.val, by omega⟩)
    (fun y : Fin (4 * 64) => f ⟨y.val, by omega⟩)
    (by intro x; congr 1; exact Fin.ext (Nat.add_comm _ _))
  rw [Fintype.sum_prod_type] at h
  exact h.symm

/-! ## LayerNorm of a finite row is finite -/

section LayerNorm

variable (X : Fin 256 → Fin 512 → Fin 128 → EReal) (g b : Fin 128 → EReal)
  (hX : ∀ m i d, ∃ r : ℝ, X m i d = (r : EReal))

include hX

/-- The mean of a finite row is a real. -/
theorem mu_real (m : Fin 256) (i : Fin 512) : ∃ c : ℝ, mu X m i = (c : EReal) := by
  choose Xr hXr using hX
  refine ⟨(∑ d : Fin 128, Xr m i d) * (1 / 128), ?_⟩
  rw [mu, w128_eq, Ideal.div_coe (by norm_num)]
  simp only [hXr, EReal.coe_mul, coe_sum]

/-- The variance of a finite row is a nonnegative real: it is a mean of squares. -/
theorem var_real (m : Fin 256) (i : Fin 512) : ∃ v : ℝ, 0 ≤ v ∧ var X m i = (v : EReal) := by
  obtain ⟨c, hc⟩ := mu_real X hX m i
  choose Xr hXr using hX
  refine ⟨(∑ d : Fin 128, (Xr m i d - c) * (Xr m i d - c)) * (1 / 128), ?_, ?_⟩
  · exact mul_nonneg (Finset.sum_nonneg fun d _ => mul_self_nonneg _) (by norm_num)
  · rw [var, hc, w128_eq, Ideal.div_coe (by norm_num)]
    simp only [hXr, EReal.coe_mul, EReal.coe_sub, coe_sum]

/-- The normalised entry of a finite row, under a finite gain and shift, is a real: `rsqrt` is taken at
    `var + ε > 0`. -/
theorem xn_real (hg : ∀ d, ∃ r : ℝ, g d = (r : EReal)) (hb : ∀ d, ∃ r : ℝ, b d = (r : EReal))
    (m : Fin 256) (i : Fin 512) (d : Fin 128) : ∃ r : ℝ, xn X g b m i d = (r : EReal) := by
  obtain ⟨c, hc⟩ := mu_real X hX m i
  obtain ⟨v, hv0, hv⟩ := var_real X hX m i
  obtain ⟨e, he, hwe⟩ := wEps_pos
  obtain ⟨x, hx⟩ := hX m i d
  obtain ⟨gd, hgd⟩ := hg d
  obtain ⟨bd, hbd⟩ := hb d
  have hpos : 0 < v + e := by linarith
  have hrs : Ideal.rsqrt (var X m i + wEps) = (((Real.sqrt (v + e))⁻¹ : ℝ) : EReal) := by
    rw [hv, hwe, ← EReal.coe_add, Ideal.rsqrt_coe, if_neg (not_lt.mpr hpos.le), if_neg hpos.ne']
  refine ⟨(x - c) * (Real.sqrt (v + e))⁻¹ * gd + bd, ?_⟩
  rw [xn, hrs, hc, hx, hgd, hbd]
  simp only [EReal.coe_mul, EReal.coe_sub, EReal.coe_add]

end LayerNorm

/-! ## The accumulator is the whole sum over the stack -/

/-- The four chunks of 64, added from zero in order, are the sum over all 256 matrices. -/
theorem acc_eq (X : Fin 256 → Fin 512 → Fin 128 → EReal) (g b : Fin 128 → EReal) (i : Fin 512) (d : Fin 128) :
    acc X g b i d = ∑ m : Fin 256, xn X g b m i d := by
  rw [sum_chunks (fun m => xn X g b m i d), Fin.sum_univ_four, acc, zero_add]
  rfl

/-! ## Averaging before the projection or after it -/

/-- Over the reals: the mean over the stack of the biased projections is the biased projection of the mean
    row. The bias is added 256 times and divided by 256. -/
theorem real_proj (N : Fin 256 → Fin 128 → ℝ) (w : Fin 128 → ℝ) (c : ℝ) :
    (∑ m : Fin 256, ((∑ d : Fin 128, N m d * w d) + c)) * (1 / 256)
      = (∑ d : Fin 128, (∑ m : Fin 256, N m d) * (1 / 256) * w d) + c := by
  rw [Finset.sum_add_distrib, Finset.sum_const, Finset.card_univ, Fintype.card_fin, add_mul, Finset.sum_comm]
  congr 1
  · rw [Finset.sum_mul]
    refine Finset.sum_congr rfl fun d _ => ?_
    rw [Finset.sum_mul, Finset.sum_mul, Finset.sum_mul]
    refine Finset.sum_congr rfl fun m _ => ?_
    ring
  · rw [nsmul_eq_mul]
    push_cast
    ring

/-- The same over the extended reals, on real entries. -/
theorem ereal_proj (N : Fin 256 → Fin 128 → ℝ) (w : Fin 128 → ℝ) (c : ℝ) :
    (∑ m : Fin 256, ((∑ d : Fin 128, (N m d : EReal) * (w d : EReal)) + (c : EReal))) * ((1 / 256 : ℝ) : EReal)
      = (∑ d : Fin 128, (∑ m : Fin 256, (N m d : EReal)) * ((1 / 256 : ℝ) : EReal) * (w d : EReal)) + (c : EReal) := by
  have h := congrArg Real.toEReal (real_proj N w c)
  simpa only [EReal.coe_mul, EReal.coe_add, coe_sum] using h

/-- On finite inputs the reference's averaged projection is the kernel's projection of the mean row, and
    it is a real. -/
theorem projRef_eq_projK (X : Fin 256 → Fin 512 → Fin 128 → EReal) (g b : Fin 128 → EReal)
    (W : Fin 128 → Fin 128 → EReal) (bias : Fin 128 → EReal)
    (hN : ∀ m i d, ∃ r : ℝ, xn X g b m i d = (r : EReal))
    (hW : ∀ a c, ∃ r : ℝ, W a c = (r : EReal)) (hc : ∀ h, ∃ r : ℝ, bias h = (r : EReal))
    (i : Fin 512) (h : Fin 128) :
    projRef X g b W bias i h = projK X g b W bias i h ∧ ∃ p : ℝ, projK X g b W bias i h = (p : EReal) := by
  choose N hN using hN
  choose Wr hWr using hW
  choose cr hcr using hc
  have hK : projK X g b W bias i h
      = (((∑ d : Fin 128, (∑ m : Fin 256, N m i d) * (1 / 256) * Wr d h) + cr h : ℝ) : EReal) := by
    rw [projK]
    simp only [meanK, acc_eq, wInv256_eq, hN, hWr, hcr, EReal.coe_mul, EReal.coe_add, coe_sum]
  refine ⟨?_, _, hK⟩
  rw [projRef, w256_eq, Ideal.div_coe (by norm_num), projK]
  simp only [meanK, acc_eq, wInv256_eq, hN, hWr, hcr]
  exact ereal_proj (fun m d => N m i d) (fun d => Wr d h) (cr h)

/-! ## The output map distributes over the sum of the two projections -/

/-- Over the reals. -/
theorem real_out (p q w : Fin 128 → ℝ) (c : ℝ) :
    (∑ h : Fin 128, (p h + q h) * w h) + c
      = ((∑ h : Fin 128, p h * w h) + c) + ∑ h : Fin 128, q h * w h := by
  simp only [add_mul, Finset.sum_add_distrib]
  ring

/-- The same over the extended reals, on real entries. -/
theorem ereal_out (p q w : Fin 128 → ℝ) (c : ℝ) :
    (∑ h : Fin 128, ((p h : EReal) + (q h : EReal)) * (w h : EReal)) + (c : EReal)
      = ((∑ h : Fin 128, (p h : EReal) * (w h : EReal)) + (c : EReal)) + ∑ h : Fin 128, (q h : EReal) * (w h : EReal) := by
  have h := congrArg Real.toEReal (real_out p q w c)
  simpa only [EReal.coe_mul, EReal.coe_add, coe_sum] using h

/-! ## The two arrangements agree -/

/-- The coordinate form: on finite inputs the reference's result is the kernel's. -/
theorem refOut_eq_kerOut (X : Fin 256 → Fin 512 → Fin 128 → EReal) (g b : Fin 128 → EReal)
    (Wl : Fin 128 → Fin 128 → EReal) (bl : Fin 128 → EReal) (Wr : Fin 128 → Fin 128 → EReal) (br : Fin 128 → EReal)
    (Wo : Fin 128 → Fin 128 → EReal) (bo : Fin 128 → EReal)
    (hX : ∀ m i d, ∃ r : ℝ, X m i d = (r : EReal)) (hg : ∀ d, ∃ r : ℝ, g d = (r : EReal))
    (hb : ∀ d, ∃ r : ℝ, b d = (r : EReal))
    (hWl : ∀ a c, ∃ r : ℝ, Wl a c = (r : EReal)) (hbl : ∀ h, ∃ r : ℝ, bl h = (r : EReal))
    (hWr : ∀ a c, ∃ r : ℝ, Wr a c = (r : EReal)) (hbr : ∀ h, ∃ r : ℝ, br h = (r : EReal))
    (hWo : ∀ a c, ∃ r : ℝ, Wo a c = (r : EReal)) (hbo : ∀ h, ∃ r : ℝ, bo h = (r : EReal))
    (i j : Fin 512) (d : Fin 128) :
    refOut X g b Wl bl Wr br Wo bo i j d = kerOut X g b Wl bl Wr br Wo bo i j d := by
  have hN := xn_real X g b hX hg hb
  have hL := projRef_eq_projK X g b Wl bl hN hWl hbl
  have hR := projRef_eq_projK X g b Wr br hN hWr hbr
  choose p hp using fun h => (hL i h).2
  choose q hq using fun h => (hR j h).2
  choose w hw using fun h => hWo h d
  obtain ⟨c, hc⟩ := hbo d
  rw [refOut, kerOut, kerL, kerR]
  simp only [(hL i _).1, (hR j _).1, hp, hq, hw, hc]
  exact ereal_out p q w c

/-- The array form: on finite inputs the reference's result array is the kernel's. -/
theorem refArr_eq_kerArr (x : ArrX) (g b : ArrV) (wl : ArrW) (bl : ArrV) (wr : ArrW) (br : ArrV) (wo : ArrW) (bo : ArrV)
    (hx : ∀ q, ∃ r : ℝ, x q = (r : EReal)) (hg : ∀ q, ∃ r : ℝ, g q = (r : EReal)) (hb : ∀ q, ∃ r : ℝ, b q = (r : EReal))
    (hwl : ∀ q, ∃ r : ℝ, wl q = (r : EReal)) (hbl : ∀ q, ∃ r : ℝ, bl q = (r : EReal)) (hwr : ∀ q, ∃ r : ℝ, wr q = (r : EReal))
    (hbr : ∀ q, ∃ r : ℝ, br q = (r : EReal)) (hwo : ∀ q, ∃ r : ℝ, wo q = (r : EReal)) (hbo : ∀ q, ∃ r : ℝ, bo q = (r : EReal)) :
    refArr x g b wl bl wr br wo bo = kerArr x g b wl bl wr br wo bo := by
  funext q
  exact refOut_eq_kerOut (cX x) (cV g) (cV b) (cW wl) (cV bl) (cW wr) (cV br) (cW wo) (cV bo)
    (fun _ _ _ => hx _) (fun _ => hg _) (fun _ => hb _) (fun _ _ => hwl _) (fun _ => hbl _)
    (fun _ _ => hwr _) (fun _ => hbr _) (fun _ _ => hwo _) (fun _ => hbo _) _ _ _

end Cert.Spec

end
-- ==== Proof.Finite.lean ====
import proofs.«169147_j1915555414566_2_alg».proof.Defs
import proofs.«169147_j1915555414566_2_alg».proof.Proof.Gen.Pre_finite_inputs
import Idealize.ShloMosaic.Lib.ReduceAll
import Idealize.ShloMosaic.Lib.ValueIdx

/-!
# Finiteness of the inputs

The precondition says, of each of the nine argument arrays, that every entry has absolute value
strictly below +∞, and takes the conjunction of the nine statements.  Over the extended reals
`|x| < +∞` rules out both infinities (and the junk value, which is the bottom element), so every
entry is the image of a real number.  This file reads that conclusion off the precondition: first
for one array of an arbitrary shape, then for the nine arrays of the predicate, and last for the
nine argument buffers of a memory satisfying the precondition.
-/

noncomputable section

namespace Cert.Finite

open Idealize.ShloMosaic Idealize.SL.Sem
open Cert.Pre_finite_inputs (S1x256x512x128 S128 S128x128 S_)

/-- The word `0x7F800000` (sign 0, exponent all ones, significand 0) denotes +∞. -/
theorem ofBits_inf : Ideal.ofBits .f32 0x7F800000#32 = (⊤ : EReal) := by
  simp [Ideal.ofBits, Ideal.ieee]

/-- An extended real whose absolute value `max x (-x)` is strictly below +∞ is a real: for `x = ⊥`
    and for `x = ⊤` the maximum is `⊤`, which is not below itself. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- The rank-0 shape has exactly one index. -/
instance subsingleton_idx0 : Subsingleton S_.Idx := ⟨fun a b => funext fun d => d.elim0⟩

/-- One array, any shape: if the conjunction over all entries of `|a q| < +∞` (a reduction by `and`
    over every axis, from 1) is 1, then every entry of `a` is a real. -/
theorem real_of_all {s : Shape} {axes : List (Fin s.rank)}
    (hb : S_.BroadcastsInDim s (![] : Fin 0 → Fin s.rank))
    (hr : s.ReducesTo axes S_) (hS : 0 < S_.numel)
    (a : FVec Ideal s .f32)
    (h : Host.reduce IntOp.andi
        (cmpf .olt (Host.absf a) (broadcastInDim s ![] hb (constant S_ .f32 0x7F800000#32)))
        (constantI S_ 1 1#1) hr hS ValueIdx.ix0 = 1#1) :
    ∀ q, ∃ r : ℝ, a q = (r : EReal) := by
  intro q
  -- the entry of the compared array at `q` is 1 …
  have e := Host.reduce_andi_all _ _ hr hS ValueIdx.ix0 h q
  -- … and that entry is the comparison of `|a q|` with the splat constant's one value
  exact real_of_abs_lt (a q) e

/-- The predicate as a function of nine arrays: if it evaluates to 1, every entry of every array is a real. -/
theorem real_of_fn [Cert.Pre_finite_inputs.Facts]
    (a0 : FVec Ideal S1x256x512x128 .f32) (a1 a2 : FVec Ideal S128 .f32) (a3 : FVec Ideal S128x128 .f32)
    (a4 : FVec Ideal S128 .f32) (a5 : FVec Ideal S128x128 .f32) (a6 : FVec Ideal S128 .f32)
    (a7 : FVec Ideal S128x128 .f32) (a8 : FVec Ideal S128 .f32)
    (h : Cert.Pre_finite_inputs.fn (F := Ideal) a0 a1 a2 a3 a4 a5 a6 a7 a8 = (fun _ => 1#1)) :
    (∀ q, ∃ r : ℝ, a0 q = (r : EReal)) ∧ (∀ q, ∃ r : ℝ, a1 q = (r : EReal)) ∧ (∀ q, ∃ r : ℝ, a2 q = (r : EReal))
      ∧ (∀ q, ∃ r : ℝ, a3 q = (r : EReal)) ∧ (∀ q, ∃ r : ℝ, a4 q = (r : EReal)) ∧ (∀ q, ∃ r : ℝ, a5 q = (r : EReal))
      ∧ (∀ q, ∃ r : ℝ, a6 q = (r : EReal)) ∧ (∀ q, ∃ r : ℝ, a7 q = (r : EReal)) ∧ (∀ q, ∃ r : ℝ, a8 q = (r : EReal)) := by
  -- the value of the predicate at its one index
  have h0 := congrFun h ValueIdx.ix0
  dsimp only [Cert.Pre_finite_inputs.fn, Cert.Pre_finite_inputs.fn_part1, Cert.Pre_finite_inputs.fn_part2] at h0
  -- a conjunction of nine, associated to the left: peel the conjuncts off from the last
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨real_of_all _ _ _ a0 h0, real_of_all _ _ _ a1 h1, real_of_all _ _ _ a2 h2, real_of_all _ _ _ a3 h3,
    real_of_all _ _ _ a4 h4, real_of_all _ _ _ a5 h5, real_of_all _ _ _ a6 h6, real_of_all _ _ _ a7 h7,
    real_of_all _ _ _ a8 h8⟩

/-- A memory satisfying the precondition holds reals in all nine argument buffers, on every device. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ q, ∃ r : ℝ, m ((c.tc : Thread Cert.KernelIdeal.nD Cert.KernelIdeal.τ).loc Cert.KernelIdeal.main_arg0) q = (r : EReal))
      ∧ (∀ q, ∃ r : ℝ, m ((c.tc : Thread Cert.KernelIdeal.nD Cert.KernelIdeal.τ).loc Cert.KernelIdeal.main_arg1) q = (r : EReal))
      ∧ (∀ q, ∃ r : ℝ, m ((c.tc : Thread Cert.KernelIdeal.nD Cert.KernelIdeal.τ).loc Cert.KernelIdeal.main_arg2) q = (r : EReal))
      ∧ (∀ q, ∃ r : ℝ, m ((c.tc : Thread Cert.KernelIdeal.nD Cert.KernelIdeal.τ).loc Cert.KernelIdeal.main_arg3) q = (r : EReal))
      ∧ (∀ q, ∃ r : ℝ, m ((c.tc : Thread Cert.KernelIdeal.nD Cert.KernelIdeal.τ).loc Cert.KernelIdeal.main_arg4) q = (r : EReal))
      ∧ (∀ q, ∃ r : ℝ, m ((c.tc : Thread Cert.KernelIdeal.nD Cert.KernelIdeal.τ).loc Cert.KernelIdeal.main_arg5) q = (r : EReal))
      ∧ (∀ q, ∃ r : ℝ, m ((c.tc : Thread Cert.KernelIdeal.nD Cert.KernelIdeal.τ).loc Cert.KernelIdeal.main_arg6) q = (r : EReal))
      ∧ (∀ q, ∃ r : ℝ, m ((c.tc : Thread Cert.KernelIdeal.nD Cert.KernelIdeal.τ).loc Cert.KernelIdeal.main_arg7) q = (r : EReal))
      ∧ (∀ q, ∃ r : ℝ, m ((c.tc : Thread Cert.KernelIdeal.nD Cert.KernelIdeal.τ).loc Cert.KernelIdeal.main_arg8) q = (r : EReal)) :=
  real_of_fn _ _ _ _ _ _ _ _ _ (h c)

end Cert.Finite
-- ==== Proof.RunResult.lean ====
/-
  The run of the kernel's entry function with its result named.

  From any launch memory with zero counters, every weakly fair execution on the TensorCores terminates without a
  fault, and in every final state the result buffer holds the last boundary's contents of the fold through the
  program's segments (two pipelined regions and one host reshape), while the nine argument arrays are as launched.
  The fold's value at the result buffer is computed separately; here only the run is stated.
-/
import proofs.«169147_j1915555414566_2_alg».proof.Proof.Gen.KernelIdeal.Frame
import proofs.«169147_j1915555414566_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the entry function terminates, nothing faulting; every final state has the
    result buffer at the last boundary's contents and the argument arrays as launched. The final thread state
    holds every unscoped buffer at the last boundary's contents, so the result buffer is read off it exactly as
    each argument is. -/
theorem run_result : θ_run defs (onTc (τ := τ) (main (F := F))) ⟨m, fun _ => 0, ρ⟩ (fun r => ∀ c : Dev nD,
      r.2.mem ((c.tc : Thread nD τ).loc main_v2) = Gen.W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun c => by
      dsimp only [Pipeline.Seg.post, Gen.hseg, Pipeline.HostSeg.ofOps]
      iintro ⟨Hh, Hp, HO⟩
      isplitl [Hh Hp]
      · isplitl [Hh]; · iexact Hh
        iexact Hp
      iexact HO⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W3 m ρ c) s')
      isplitl [Hh] <;> iassumption)
    (hQ := fun s h c =>
      ⟨h c _ (Gen.mem_uc main_v2 (by decide)),
       (h c _ (Gen.mem_uc main_arg0 (by decide))).trans (Gen.W3_main_arg0 m ρ c),
       (h c _ (Gen.mem_uc main_arg1 (by decide))).trans (Gen.W3_main_arg1 m ρ c),
       (h c _ (Gen.mem_uc main_arg2 (by decide))).trans (Gen.W3_main_arg2 m ρ c),
       (h c _ (Gen.mem_uc main_arg3 (by decide))).trans (Gen.W3_main_arg3 m ρ c),
       (h c _ (Gen.mem_uc main_arg4 (by decide))).trans (Gen.W3_main_arg4 m ρ c),
       (h c _ (Gen.mem_uc main_arg5 (by decide))).trans (Gen.W3_main_arg5 m ρ c),
       (h c _ (Gen.mem_uc main_arg6 (by decide))).trans (Gen.W3_main_arg6 m ρ c),
       (h c _ (Gen.mem_uc main_arg7 (by decide))).trans (Gen.W3_main_arg7 m ρ c),
       (h c _ (Gen.mem_uc main_arg8 (by decide))).trans (Gen.W3_main_arg8 m ρ c)⟩)

end Cert.KernelIdeal.RunValue

end
-- ==== Proof.LibKeepdims.lean ====
/-
  Library-only lemmas: the unit axes a `keepdims` sum or a `[:, :, None]` / `[:, None, :]` index adds, read at an index
  given by coordinates, for any element type and any extents.

  * a shape cast that appends or inserts a unit axis — `[a, b] → [a, b, 1]`, `[a, b] → [a, 1, b]`, `[a] → [a, 1]` — reads
    the operand at the remaining coordinates (`shapeCast_ab_ab1_apply`, `shapeCast_ab_a1b_apply`, `shapeCast_a_a1_apply`);
  * a broadcast along a unit axis of a rank-3 array — `[a, b, 1] → [a, b, c]`, `[a, 1, c] → [a, b, c]`,
    `[1, b, c] → [a, b, c]` — reads the operand with `0` on that axis (`broadcastTo_ab1_abc_apply`,
    `broadcastTo_a1c_abc_apply`, `broadcastTo_1bc_abc_apply`); the other two extents must not themselves be `1`.
  Indices are built with `ix1` / `ix2` / `ix3` from coordinates of literal `Fin` types.
-/
import Idealize.ShloMosaic.Lib.Pipeline.Value
import Idealize.ShloMosaic.Lib.ValueIdx

namespace Cert.Lib.Keepdims

open Idealize.ShloMosaic Idealize.ShloMosaic.ValueIdx

variable {α : Type}

/-- An `[a, b]` array cast to `[a, b, 1]` reads, at `(p, i, u)`, the operand at `(p, i)`. -/
theorem shapeCast_ab_ab1_apply {a b : ℕ} (x : (⟨2, ![a, b]⟩ : Shape).Idx → α)
    (h : (⟨2, ![a, b]⟩ : Shape).ShapeCasts ⟨3, ![a, b, 1]⟩) (p : Fin a) (i : Fin b) (u : Fin 1) :
    shapeCast ⟨3, ![a, b, 1]⟩ x h (ix3 p i u) = x (ix2 p i) :=
  shapeCast_apply x h _ _ (by
    have hu : u.val = 0 := by omega
    rw [Shape.rowMajor_val_three, Shape.rowMajor_val_two]
    show p.val * b + i.val = (p.val * b + i.val) * 1 + u.val
    rw [hu, Nat.mul_one, Nat.add_zero])

/-- An `[a, b]` array cast to `[a, 1, b]` reads, at `(p, u, j)`, the operand at `(p, j)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (j : Fin b) :
    shapeCast ⟨3, ![a, 1, b]⟩ x h (ix3 p u j) = x (ix2 p j) :=
  shapeCast_apply x h _ _ (by
    have hu : u.val = 0 := by omega
    rw [Shape.rowMajor_val_three, Shape.rowMajor_val_two]
    show p.val * b + j.val = (p.val * 1 + u.val) * b + j.val
    rw [hu, Nat.mul_one, Nat.add_zero])

/-- An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, b, 1]` array broadcast to `[a, b, c]` (with `a`, `b` not `1`) reads, at `(p, i, j)`, the operand at `(p, i, 0)`. -/
theorem broadcastTo_ab1_abc_apply {a b c : ℕ} (ha : a ≠ 1) (hb : b ≠ 1) (x : (⟨3, ![a, b, 1]⟩ : Shape).Idx → α)
    (h : (⟨3, ![a, b, 1]⟩ : Shape).Broadcasts ⟨3, ![a, b, c]⟩) (p : Fin a) (i : Fin b) (j : Fin c) :
    broadcastTo ⟨3, ![a, b, c]⟩ x h (ix3 p i j) = x (ix3 p i (0 : Fin 1)) := by
  refine broadcastTo_apply x h (ix3 p i j) (ix3 p i (0 : Fin 1)) fun ax => ?_
  match ax with
  | ⟨0, _⟩ =>
    show p.val = if a = 1 then 0 else p.val
    rw [if_neg ha]
  | ⟨1, _⟩ =>
    show i.val = if b = 1 then 0 else i.val
    rw [if_neg hb]
  | ⟨2, _⟩ =>
    show 0 = if (1 : ℕ) = 1 then 0 else j.val
    rw [if_pos rfl]

/-- An `[a, 1, c]` array broadcast to `[a, b, c]` (with `a`, `c` not `1`) reads, at `(p, i, j)`, the operand at `(p, 0, j)`. -/
theorem broadcastTo_a1c_abc_apply {a b c : ℕ} (ha : a ≠ 1) (hc : c ≠ 1) (x : (⟨3, ![a, 1, c]⟩ : Shape).Idx → α)
    (h : (⟨3, ![a, 1, c]⟩ : Shape).Broadcasts ⟨3, ![a, b, c]⟩) (p : Fin a) (i : Fin b) (j : Fin c) :
    broadcastTo ⟨3, ![a, b, c]⟩ x h (ix3 p i j) = x (ix3 p (0 : Fin 1) j) := by
  refine broadcastTo_apply x h (ix3 p i j) (ix3 p (0 : Fin 1) j) fun ax => ?_
  match ax with
  | ⟨0, _⟩ =>
    show p.val = if a = 1 then 0 else p.val
    rw [if_neg ha]
  | ⟨1, _⟩ =>
    show 0 = if (1 : ℕ) = 1 then 0 else i.val
    rw [if_pos rfl]
  | ⟨2, _⟩ =>
    show j.val = if c = 1 then 0 else j.val
    rw [if_neg hc]

/-- A `[1, b, c]` array broadcast to `[a, b, c]` (with `b`, `c` not `1`) reads, at `(p, i, j)`, the operand at `(0, i, j)`. -/
theorem broadcastTo_1bc_abc_apply {a b c : ℕ} (hb : b ≠ 1) (hc : c ≠ 1) (x : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ x h (ix3 p i j) = x (ix3 (0 : Fin 1) i j) := by
  refine broadcastTo_apply x h (ix3 p i j) (ix3 (0 : Fin 1) i j) fun ax => ?_
  match ax with
  | ⟨0, _⟩ =>
    show 0 = if (1 : ℕ) = 1 then 0 else p.val
    rw [if_pos rfl]
  | ⟨1, _⟩ =>
    show i.val = if b = 1 then 0 else i.val
    rw [if_neg hb]
  | ⟨2, _⟩ =>
    show j.val = if c = 1 then 0 else j.val
    rw [if_neg hc]

end Cert.Lib.Keepdims
-- ==== Proof.Region1Pay.lean ====
/-
  The second region's arithmetic, with no memory in sight.

  * The body's payload: from two `[128, 128]` blocks `x0`, `x1` it forms the `[128, 128, 128]` block whose entry at
    `(p, q, d)` is `x0 (p, d) + x1 (q, d)`: `x0` gets a unit middle axis and is broadcast along it, `x1` a unit
    leading axis and is broadcast along that, and the two broadcasts are added.
  * The host's reshape: giving the `[512, 512, 128]` broadcast sum of two `[512, 128]` arrays a unit leading axis
    yields the `[1, 512, 512, 128]` broadcast sum of the same two arrays.
-/
import proofs.«169147_j1915555414566_2_alg».proof.Proof.Gen.KernelIdeal.Skeleton
import proofs.«169147_j1915555414566_2_alg».proof.Proof.Spec
import proofs.«169147_j1915555414566_2_alg».proof.Proof.LibKeepdims
import Idealize.ShloMosaic.Lib.Pipeline.Value
import Idealize.ShloMosaic.Lib.ValueIdx
import Idealize.ShloMosaic.Lib.ValueLayout

noncomputable section

namespace Cert.KernelIdeal.RunValue

open Idealize.ShloMosaic Idealize.ShloMosaic.ValueIdx

/-- The payload at `(p, q, d)`: row `p` of the first block plus row `q` of the second, at column `d`. -/
theorem pay_apply (x0 x1 : Vec Ideal S128x128 .f32) (p q d : Fin 128) :
    Gen.k1_pay1 (F := Ideal) x0 x1 (ix3 p q d) = x0 (ix2 p d) + x1 (ix2 q d) := by
  unfold Gen.k1_pay1
  show addf _ _ (ix3 p q d) = _
  rw [addf_apply]
  refine congrArg₂ (· + ·) ?_ ?_
  · refine (Cert.Lib.Keepdims.broadcastTo_a1c_abc_apply (by decide) (by decide) _ _ p q d).trans ?_
    rw [shapeCast_self, shapeCast_self]
    exact Cert.Lib.Keepdims.shapeCast_ab_a1b_apply _ _ p (0 : Fin 1) d
  · refine (Cert.Lib.Keepdims.broadcastTo_1bc_abc_apply (by decide) (by decide) _ _ p q d).trans ?_
    rw [shapeCast_self, shapeCast_self]
    exact shapeCast_ab_1ab_apply _ _ (0 : Fin 1) q d

/-- The same at any index of the block, by its coordinates. -/
theorem pay_apply_idx (x0 x1 : Vec Ideal S128x128 .f32) (j : S128x128x128.Idx) :
    Gen.k1_pay1 (F := Ideal) x0 x1 j = x0 (ix2 (j 0) (j 2)) + x1 (ix2 (j 1) (j 2)) := by
  obtain ⟨p, q, d, rfl⟩ : ∃ (p q d : Fin 128), j = ix3 p q d := ⟨j 0, j 1, j 2, eq_ix3 j⟩
  exact pay_apply x0 x1 p q d

/-- A unit leading axis on the broadcast sum of two `[512, 128]` arrays. -/
theorem reshape_bsum3 (L R : Cert.Spec.ArrLR) (h : S512x512x128.ShapeCasts S1x512x512x128) :
    shapeCast S1x512x512x128 (Cert.Spec.bsum3 L R) h = Cert.Spec.bsum4 L R := by
  funext y
  obtain ⟨u, i, j, d, rfl⟩ : ∃ (u : Fin 1) (i j : Fin 512) (d : Fin 128), y = ix4 u i j d :=
    ⟨y 0, y 1, y 2, y 3, eq_ix4 y⟩
  refine (shapeCast_abc_1abc_apply _ h u i j d).trans ?_
  rfl

end Cert.KernelIdeal.RunValue

end
-- ==== Proof.Region1.lean ====
/-
  The second region and the host's reshape, read as values.

  The second region runs over a 4 × 4 grid. At point `(a, b)` it reads block `a` of the first `[512, 128]` array
  (rows `128 a … 128 a + 127`) and block `b` of the second, and writes block `(a, b, 0)` of the `[512, 512, 128]`
  result with the body's payload of the two blocks: entry `(p, q, d)` of the block is row `p` of the first block
  plus row `q` of the second, at column `d`. So every written block is a block of ONE function of the result's
  index, the broadcast sum `L (i, d) + R (j, d)` of the two arrays as the region finds them; the sixteen blocks
  tile the result, which therefore ends holding that function. The host then gives the result a unit leading axis.
  The two arrays the region finds are what the first region left in its two outputs.
-/
import proofs.«169147_j1915555414566_2_alg».proof.Proof.Gen.KernelIdeal.Frame
import proofs.«169147_j1915555414566_2_alg».proof.Proof.Spec
import Idealize.ShloMosaic.Lib.Pipeline.Value
import Idealize.ShloMosaic.Lib.ValueIdx
import Idealize.ShloMosaic.Lib.ValueLayout
import Idealize.ShloMosaic.Lib.StableHlo.Run
import proofs.«169147_j1915555414566_2_alg».proof.Proof.Region1Pay

set_option maxRecDepth 16384

noncomputable section

namespace Cert.KernelIdeal.RunValue

open Idealize.ShloMosaic Idealize.ShloMosaic.TcCoe Idealize.ShloMosaic.ValueIdx
open Idealize.SL.Sem
open Idealize.ShloMosaic.Pipeline (Dat)

/-! ## The region at any entry contents -/

section Region
variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices at every point of the grid: the first input moves with the output's axis 0, the second with its
    axis 1, neither input is cut along its columns, and the output's blocks stay inside a 4 × 4 × 1 box. -/
theorem block_indices : ∀ t : Fin cfg1.N,
    win1_0.index t (0 : Fin 2) = win1_2.index t (0 : Fin 3)
    ∧ win1_0.index t (1 : Fin 2) = 0
    ∧ win1_1.index t (0 : Fin 2) = win1_2.index t (1 : Fin 3)
    ∧ win1_1.index t (1 : Fin 2) = 0
    ∧ win1_2.index t (0 : Fin 3) ≤ 3
    ∧ win1_2.index t (1 : Fin 3) ≤ 3
    ∧ win1_2.index t (2 : Fin 3) = 0 :=
  (by decide +kernel : ∀ t : Fin grid1.N, _)

/-- Every block of the 4 × 4 × 1 box is some point's. -/
theorem block_onto : ∀ (q0 q1 : Fin 4), ∃ t : Fin cfg1.N, win1_2.index t = ![q0.val, q1.val, 0] :=
  (by decide +kernel : ∀ (q0 q1 : Fin 4), ∃ t : Fin grid1.N, win1_2.index t = ![q0.val, q1.val, 0])

/-- What point `t` writes back is block `t` of the broadcast sum of the two arrays as the region finds them. -/
theorem flushed_eq (c : Dev nD) (t : Fin cfg1.N) :
    (Gen.dat1 V c).flushed 2 t
      = ((cfg1.win 2).blk t).view.read (Elt Ideal) (Cert.Spec.bsum3 (V c main_v0_0) (V c main_v0_1)) := by
  show (cfg1.win 2).cut (grid1.coords t) ((Gen.dat1 V c).after 2 t) = _
  rw [Gen.after1_2]
  unfold Gen.out1_2
  rw [View.canon_unit_zero zeros3]
  simp only [View.ld_unit_zero (S := S128x128) zeros2]
  obtain ⟨e0, e1, e2, e3, e4, e5, e6⟩ := block_indices t
  funext j
  refine (pay_apply_idx (Gen.iblk1 V c 0 t) (Gen.iblk1 V c 1 t) j).trans ?_
  have key : ∀ L R : Cert.Spec.ArrLR,
      L (((cfg1.win 0).blk t).view.emb (ix2 (n0 := 128) (n1 := 128) (j 0) (j 2)))
          + R (((cfg1.win 1).blk t).view.emb (ix2 (n0 := 128) (n1 := 128) (j 1) (j 2)))
        = Cert.Spec.bsum3 L R (((cfg1.win 2).blk t).view.emb j) := by
    intro L R
    refine congrArg₂ (· + ·) (congrArg L (funext fun a => Fin.ext ?_)) (congrArg R (funext fun a => Fin.ext ?_))
    · match a with
      | ⟨0, _⟩ =>
        show win1_0.index t (0 : Fin 2) * 128 + 1 * (j 0).val = win1_2.index t (0 : Fin 3) * 128 + 1 * (j 0).val
        omega
      | ⟨1, _⟩ =>
        show win1_0.index t (1 : Fin 2) * 128 + 1 * (j 2).val = win1_2.index t (2 : Fin 3) * 128 + 1 * (j 2).val
        omega
    · match a with
      | ⟨0, _⟩ =>
        show win1_1.index t (0 : Fin 2) * 128 + 1 * (j 1).val = win1_2.index t (1 : Fin 3) * 128 + 1 * (j 1).val
        omega
      | ⟨1, _⟩ =>
        show win1_1.index t (1 : Fin 2) * 128 + 1 * (j 2).val = win1_2.index t (2 : Fin 3) * 128 + 1 * (j 2).val
        omega
  exact key (V c main_v0_0) (V c main_v0_1)

/-- An index of the result is in point `t`'s block iff each coordinate is in the block's range on its axis. -/
theorem mem_blk (t : Fin cfg1.N) (i : S512x512x128.Idx) :
    i ∈ ((cfg1.win 2).blk t).view.set ↔ ∀ a : Fin 3, win1_2.index t a * S128x128x128.size a ≤ (i a).val
      ∧ (i a).val < win1_2.index t a * S128x128x128.size a + S128x128x128.size a := by
  show i ∈ ((View.whole main_v1).slice (win1_2.rect t)).set ↔ _
  rw [View.set_slice_whole, Rect.mem_set_unit]
  exact Iff.rfl

/-- The sixteen blocks cover the result: `(i, j, d)` lies in the block of the point with block index
    `(i / 128, j / 128, 0)`. -/
theorem covered (i : S512x512x128.Idx) :
    ∃ t : Fin cfg1.N, (cfg1.win 2).flush t = true ∧ i ∈ ((cfg1.win 2).blk t).view.set := by
  have hi0 : (i 0).val < 512 := (i 0).isLt
  have hi1 : (i 1).val < 512 := (i 1).isLt
  have hi2 : (i 2).val < 128 := (i 2).isLt
  obtain ⟨t, ht⟩ := block_onto ⟨(i 0).val / 128, by omega⟩ ⟨(i 1).val / 128, by omega⟩
  have q0 : win1_2.index t (0 : Fin 3) = (i 0).val / 128 := congrFun ht 0
  have q1 : win1_2.index t (1 : Fin 3) = (i 1).val / 128 := congrFun ht 1
  have q2 : win1_2.index t (2 : Fin 3) = 0 := congrFun ht 2
  refine ⟨t, Gen.flush1_2 t, ?_⟩
  rw [mem_blk]
  intro a
  match a with
  | ⟨0, _⟩ =>
    show win1_2.index t (0 : Fin 3) * 128 ≤ (i 0).val ∧ (i 0).val < win1_2.index t (0 : Fin 3) * 128 + 128
    omega
  | ⟨1, _⟩ =>
    show win1_2.index t (1 : Fin 3) * 128 ≤ (i 1).val ∧ (i 1).val < win1_2.index t (1 : Fin 3) * 128 + 128
    omega
  | ⟨2, _⟩ =>
    show win1_2.index t (2 : Fin 3) * 128 ≤ (i 2).val ∧ (i 2).val < win1_2.index t (2 : Fin 3) * 128 + 128
    omega

/-- The result array after the region: the broadcast sum of the two arrays as the region finds them. -/
theorem region_result (c : Dev nD) :
    (Gen.dat1 V c).arrAt 2 cfg1.N = Cert.Spec.bsum3 (V c main_v0_0) (V c main_v0_1) :=
  (Gen.dat1 V c).arrAt_eq_of_cover 2 (Cert.Spec.bsum3 (V c main_v0_0) (V c main_v0_1))
    (fun t _ => flushed_eq V c t) covered

end Region

/-! ## The run's result -/

variable (m : (ℓ : Loc nD τ sig) → Buf (Elt Ideal) ℓ) (ρ : Dev nD → PrngReg)

/-- The result buffer at the last boundary: the broadcast sum, with a unit leading axis, of what the first region
    left in its two output arrays. -/
theorem result_eq (c : Dev nD) :
    Gen.W3 m ρ c (Proc.devRef .tc main_v2)
      = Cert.Spec.bsum4 ((Gen.dat0 (Gen.V0 m ρ) c).arrAt 9 cfg0.N) ((Gen.dat0 (Gen.V0 m ρ) c).arrAt 10 cfg0.N) := by
  have e2 : Gen.W2 m ρ c (Proc.devRef .tc main_v1)
      = Cert.Spec.bsum3 (Gen.V1 m ρ c main_v0_0) (Gen.V1 m ρ c main_v0_1) :=
    (Gen.W2_arr m ρ c 2).trans (region_result (Gen.V1 m ρ) c)
  have eL : Gen.V1 m ρ c main_v0_0 = (Gen.dat0 (Gen.V0 m ρ) c).arrAt 9 cfg0.N := Gen.W1_arr m ρ c 9
  have eR : Gen.V1 m ρ c main_v0_1 = (Gen.dat0 (Gen.V0 m ρ) c).arrAt 10 cfg0.N := Gen.W1_arr m ρ c 10
  show StableHlo.after Gen.hostOps2 (Gen.W2 m ρ c) (Proc.devRef .tc main_v2) = _
  after_results
  rw [e2, eL, eR]
  exact reshape_bsum3 _ _ _

end Cert.KernelIdeal.RunValue

end
-- ==== Proof.Blocks0.lean ====
import proofs.«169147_j1915555414566_2_alg».proof.Proof.Gen.KernelIdeal.Frame
import Idealize.ShloMosaic.Lib.Pipeline.Value
import Idealize.ShloMosaic.Lib.ValueIdx

/-!
# The first pipeline's blocks, read against whole arrays

The first pipeline runs over a grid of 8 points.  At point `t` its input window 0 holds rows
`64·t … 64·t+63` (third axis) of the `[1,256,512,128]` argument; input windows 1–8 hold their
arrays whole; output windows 9 and 10 write rows `64·t … 64·t+63` of two `[512,128]` arrays.
A block's coordinate on an axis is always (block index) × (block extent) + (coordinate in the block),
and the block indices are decided once over the grid.  Since the eight row ranges tile `0 … 511`,
a function `G` on the whole `[512,128]` index set that agrees with each point's output block, row by
row, is what the array holds after the last point.
-/

set_option maxRecDepth 16384

noncomputable section

namespace Cert.KernelIdeal.Blocks0

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-- Row `r` of block `t` (64 rows to a block, 8 blocks) is a row of the 512-row array. -/
theorem row_lt (t : Fin cfg0.N) (r : Fin 64) : 64 * t.val + r.val < 512 := by
  have ht := t.isLt
  have hN : cfg0.N = 8 := N_0
  have hr := r.isLt
  omega

/-! ## Which array each window stages -/

theorem arrRef0_0 : Pipeline.arrRef spec0 0 = main_arg0 := rfl
theorem arrRef0_1 : Pipeline.arrRef spec0 1 = main_arg1 := rfl
theorem arrRef0_2 : Pipeline.arrRef spec0 2 = main_arg2 := rfl
theorem arrRef0_3 : Pipeline.arrRef spec0 3 = main_arg3 := rfl
theorem arrRef0_4 : Pipeline.arrRef spec0 4 = main_arg4 := rfl
theorem arrRef0_5 : Pipeline.arrRef spec0 5 = main_arg5 := rfl
theorem arrRef0_6 : Pipeline.arrRef spec0 6 = main_arg6 := rfl
theorem arrRef0_7 : Pipeline.arrRef spec0 7 = main_arg7 := rfl
theorem arrRef0_8 : Pipeline.arrRef spec0 8 = main_arg8 := rfl
theorem arrRef0_9 : Pipeline.arrRef spec0 9 = main_v0_0 := rfl
theorem arrRef0_10 : Pipeline.arrRef spec0 10 = main_v0_1 := rfl

/-! ## Output window 9 -/

/-- The block index of output window 9 at grid point `t` is `(t, 0)`. -/
theorem idx9 : ∀ t : Fin cfg0.N, win0_9.index t (0 : Fin 2) = t.val ∧ win0_9.index t (1 : Fin 2) = 0 :=
  (by decide +kernel : ∀ t : Fin grid0.N, _)

/-- What point `t` writes back through window 9 is block `t` of `G`, when `G` agrees with the point's
    output block row by row. -/
theorem flushed9_eq (c : Dev nD) (G : S512x128.Idx → Elt F .f32)
    (h : ∀ (t : Fin cfg0.N) (r : Fin 64) (d : Fin 128),
      (outsAt0 V c t).1 (ValueIdx.ix2 r d) = G (ValueIdx.ix2 (⟨64 * t.val + r.val, row_lt t r⟩ : Fin 512) d))
    (t : Fin cfg0.N) :
    (dat0 V c).flushed 9 t = ((cfg0.win 9).blk t).view.read (Elt F) G := by
  show (cfg0.win 9).cut (grid0.coords t) ((dat0 V c).after 9 t) = _
  rw [after0_9]
  obtain ⟨e0, e1⟩ := idx9 t
  funext j
  show (outsAt0 V c t).1 j = G (((cfg0.win 9).blk t).view.emb j)
  have hj : j = ValueIdx.ix2 (j 0) (j 1) := ValueIdx.eq_ix2 j
  calc (outsAt0 V c t).1 j = (outsAt0 V c t).1 (ValueIdx.ix2 (j 0) (j 1)) := congrArg _ hj
    _ = G (ValueIdx.ix2 (⟨64 * t.val + (j 0).val, row_lt t (j 0)⟩ : Fin 512) (j 1)) := h t (j 0) (j 1)
    _ = G (((cfg0.win 9).blk t).view.emb j) := by
      refine congrArg G (funext fun a => Fin.ext ?_)
      match a with
      | ⟨0, _⟩ => show 64 * t.val + (j 0).val = win0_9.index t (0 : Fin 2) * 64 + 1 * (j 0).val; omega
      | ⟨1, _⟩ => show (j 1).val = win0_9.index t (1 : Fin 2) * 128 + 1 * (j 1).val; omega

/-- An index of the array is in point `t`'s block iff each coordinate is in the block's range on its axis. -/
theorem mem_blk9 (t : Fin cfg0.N) (i : S512x128.Idx) :
    i ∈ ((cfg0.win 9).blk t).view.set ↔ ∀ a : Fin 2, win0_9.index t a * S64x128.size a ≤ (i a).val ∧ (i a).val < win0_9.index t a * S64x128.size a + S64x128.size a := by
  show i ∈ ((View.whole main_v0_0).slice (win0_9.rect t)).set ↔ _
  rw [View.set_slice_whole, Rect.mem_set_unit]
  exact Iff.rfl

/-- Every index of the array is in some point's block: row `i` is in the block of point `i / 64`. -/
theorem cover9 (i : S512x128.Idx) :
    ∃ t : Fin cfg0.N, (cfg0.win 9).flush t = true ∧ i ∈ ((cfg0.win 9).blk t).view.set := by
  have hi0 : (i 0).val < 512 := (i 0).isLt
  have hi1 : (i 1).val < 128 := (i 1).isLt
  have hN : cfg0.N = 8 := N_0
  obtain ⟨t, ht⟩ : ∃ t : Fin cfg0.N, t.val = (i 0).val / 64 := ⟨⟨(i 0).val / 64, by rw [hN]; omega⟩, rfl⟩
  obtain ⟨e0, e1⟩ := idx9 t
  refine ⟨t, flush0_9 t, ?_⟩
  rw [mem_blk9]
  intro a
  match a with
  | ⟨0, _⟩ => show win0_9.index t (0 : Fin 2) * 64 ≤ (i 0).val ∧ (i 0).val < win0_9.index t (0 : Fin 2) * 64 + 64; omega
  | ⟨1, _⟩ => show win0_9.index t (1 : Fin 2) * 128 ≤ (i 1).val ∧ (i 1).val < win0_9.index t (1 : Fin 2) * 128 + 128; omega

/-- The array window 9 writes ends holding `G`, when `G` agrees with every point's output block row by row. -/
theorem arr9_of_rows (c : Dev nD) (G : S512x128.Idx → Elt F .f32)
    (h : ∀ (t : Fin cfg0.N) (r : Fin 64) (d : Fin 128),
      (outsAt0 V c t).1 (ValueIdx.ix2 r d) = G (ValueIdx.ix2 (⟨64 * t.val + r.val, row_lt t r⟩ : Fin 512) d)) :
    (dat0 V c).arrAt 9 cfg0.N = G :=
  (dat0 V c).arrAt_eq_of_cover 9 G (fun t _ => flushed9_eq V c G h t) cover9

/-! ## Output window 10 -/

/-- The block index of output window 10 at grid point `t` is `(t, 0)`. -/
theorem idx10 : ∀ t : Fin cfg0.N, win0_10.index t (0 : Fin 2) = t.val ∧ win0_10.index t (1 : Fin 2) = 0 :=
  (by decide +kernel : ∀ t : Fin grid0.N, _)

/-- What point `t` writes back through window 10 is block `t` of `G`, when `G` agrees with the point's
    output block row by row. -/
theorem flushed10_eq (c : Dev nD) (G : S512x128.Idx → Elt F .f32)
    (h : ∀ (t : Fin cfg0.N) (r : Fin 64) (d : Fin 128),
      (outsAt0 V c t).2 (ValueIdx.ix2 r d) = G (ValueIdx.ix2 (⟨64 * t.val + r.val, row_lt t r⟩ : Fin 512) d))
    (t : Fin cfg0.N) :
    (dat0 V c).flushed 10 t = ((cfg0.win 10).blk t).view.read (Elt F) G := by
  show (cfg0.win 10).cut (grid0.coords t) ((dat0 V c).after 10 t) = _
  rw [after0_10]
  obtain ⟨e0, e1⟩ := idx10 t
  funext j
  show (outsAt0 V c t).2 j = G (((cfg0.win 10).blk t).view.emb j)
  have hj : j = ValueIdx.ix2 (j 0) (j 1) := ValueIdx.eq_ix2 j
  calc (outsAt0 V c t).2 j = (outsAt0 V c t).2 (ValueIdx.ix2 (j 0) (j 1)) := congrArg _ hj
    _ = G (ValueIdx.ix2 (⟨64 * t.val + (j 0).val, row_lt t (j 0)⟩ : Fin 512) (j 1)) := h t (j 0) (j 1)
    _ = G (((cfg0.win 10).blk t).view.emb j) := by
      refine congrArg G (funext fun a => Fin.ext ?_)
      match a with
      | ⟨0, _⟩ => show 64 * t.val + (j 0).val = win0_10.index t (0 : Fin 2) * 64 + 1 * (j 0).val; omega
      | ⟨1, _⟩ => show (j 1).val = win0_10.index t (1 : Fin 2) * 128 + 1 * (j 1).val; omega

/-- An index of the array is in point `t`'s block iff each coordinate is in the block's range on its axis. -/
theorem mem_blk10 (t : Fin cfg0.N) (i : S512x128.Idx) :
    i ∈ ((cfg0.win 10).blk t).view.set ↔ ∀ a : Fin 2, win0_10.index t a * S64x128.size a ≤ (i a).val ∧ (i a).val < win0_10.index t a * S64x128.size a + S64x128.size a := by
  show i ∈ ((View.whole main_v0_1).slice (win0_10.rect t)).set ↔ _
  rw [View.set_slice_whole, Rect.mem_set_unit]
  exact Iff.rfl

/-- Every index of the array is in some point's block: row `i` is in the block of point `i / 64`. -/
theorem cover10 (i : S512x128.Idx) :
    ∃ t : Fin cfg0.N, (cfg0.win 10).flush t = true ∧ i ∈ ((cfg0.win 10).blk t).view.set := by
  have hi0 : (i 0).val < 512 := (i 0).isLt
  have hi1 : (i 1).val < 128 := (i 1).isLt
  have hN : cfg0.N = 8 := N_0
  obtain ⟨t, ht⟩ : ∃ t : Fin cfg0.N, t.val = (i 0).val / 64 := ⟨⟨(i 0).val / 64, by rw [hN]; omega⟩, rfl⟩
  obtain ⟨e0, e1⟩ := idx10 t
  refine ⟨t, flush0_10 t, ?_⟩
  rw [mem_blk10]
  intro a
  match a with
  | ⟨0, _⟩ => show win0_10.index t (0 : Fin 2) * 64 ≤ (i 0).val ∧ (i 0).val < win0_10.index t (0 : Fin 2) * 64 + 64; omega
  | ⟨1, _⟩ => show win0_10.index t (1 : Fin 2) * 128 ≤ (i 1).val ∧ (i 1).val < win0_10.index t (1 : Fin 2) * 128 + 128; omega

/-- The array window 10 writes ends holding `G`, when `G` agrees with every point's output block row by row. -/
theorem arr10_of_rows (c : Dev nD) (G : S512x128.Idx → Elt F .f32)
    (h : ∀ (t : Fin cfg0.N) (r : Fin 64) (d : Fin 128),
      (outsAt0 V c t).2 (ValueIdx.ix2 r d) = G (ValueIdx.ix2 (⟨64 * t.val + r.val, row_lt t r⟩ : Fin 512) d)) :
    (dat0 V c).arrAt 10 cfg0.N = G :=
  (dat0 V c).arrAt_eq_of_cover 10 G (fun t _ => flushed10_eq V c G h t) cover10

/-! ## Input window 0: rows `64·t … 64·t+63` of the third axis -/

/-- The block index of input window 0 at grid point `t` is `(0, 0, t, 0)`. -/
theorem idx0 : ∀ t : Fin cfg0.N, win0_0.index t (0 : Fin 4) = 0 ∧ win0_0.index t (1 : Fin 4) = 0
    ∧ win0_0.index t (2 : Fin 4) = t.val ∧ win0_0.index t (3 : Fin 4) = 0 :=
  (by decide +kernel : ∀ t : Fin grid0.N, _)

/-- Entry `(0, m, r, d)` of window 0's block at point `t` is entry `(0, m, 64·t + r, d)` of the array. -/
theorem iblk0_0_apply (c : Dev nD) (t : Fin cfg0.N) (m : Fin 256) (r : Fin 64) (d : Fin 128) :
    iblk0 V c 0 t (ValueIdx.ix4 (0 : Fin 1) m r d)
      = V c (Pipeline.arrRef spec0 0) (ValueIdx.ix4 (0 : Fin 1) m (⟨64 * t.val + r.val, row_lt t r⟩ : Fin 512) d) := by
  obtain ⟨e0, e1, e2, e3⟩ := idx0 t
  show V c (Pipeline.arrRef spec0 0) (((cfg0.win 0).blk t).view.emb (ValueIdx.ix4 (0 : Fin 1) m r d)) = _
  refine congrArg (V c (Pipeline.arrRef spec0 0)) (funext fun a => Fin.ext ?_)
  match a with
  | ⟨0, _⟩ => show win0_0.index t (0 : Fin 4) * 1 + 1 * 0 = 0; omega
  | ⟨1, _⟩ => show win0_0.index t (1 : Fin 4) * 256 + 1 * m.val = m.val; omega
  | ⟨2, _⟩ => show win0_0.index t (2 : Fin 4) * 64 + 1 * r.val = 64 * t.val + r.val; omega
  | ⟨3, _⟩ => show win0_0.index t (3 : Fin 4) * 128 + 1 * d.val = d.val; omega

/-! ## Input windows 1–8: the whole arrays -/

/-- The block index of input window 1 is `0` at every point … -/
theorem idx1 : ∀ t : Fin cfg0.N, win0_1.index t (0 : Fin 1) = 0 :=
  (by decide +kernel : ∀ t : Fin grid0.N, _)

/-- … so its block is the whole array. -/
theorem iblk0_1 (c : Dev nD) (t : Fin cfg0.N) : iblk0 V c 1 t = V c (Pipeline.arrRef spec0 1) := by
  have e0 := idx1 t
  funext j
  show V c (Pipeline.arrRef spec0 1) (((cfg0.win 1).blk t).view.emb j) = V c (Pipeline.arrRef spec0 1) j
  refine congrArg (V c (Pipeline.arrRef spec0 1)) (funext fun a => Fin.ext ?_)
  match a with
  | ⟨0, _⟩ => show win0_1.index t (0 : Fin 1) * 128 + 1 * (j 0).val = (j 0).val; omega

/-- The block index of input window 2 is `0` at every point … -/
theorem idx2 : ∀ t : Fin cfg0.N, win0_2.index t (0 : Fin 1) = 0 :=
  (by decide +kernel : ∀ t : Fin grid0.N, _)

/-- … so its block is the whole array. -/
theorem iblk0_2 (c : Dev nD) (t : Fin cfg0.N) : iblk0 V c 2 t = V c (Pipeline.arrRef spec0 2) := by
  have e0 := idx2 t
  funext j
  show V c (Pipeline.arrRef spec0 2) (((cfg0.win 2).blk t).view.emb j) = V c (Pipeline.arrRef spec0 2) j
  refine congrArg (V c (Pipeline.arrRef spec0 2)) (funext fun a => Fin.ext ?_)
  match a with
  | ⟨0, _⟩ => show win0_2.index t (0 : Fin 1) * 128 + 1 * (j 0).val = (j 0).val; omega

/-- The block index of input window 3 is `(0, 0)` at every point … -/
theorem idx3 : ∀ t : Fin cfg0.N, win0_3.index t (0 : Fin 2) = 0 ∧ win0_3.index t (1 : Fin 2) = 0 :=
  (by decide +kernel : ∀ t : Fin grid0.N, _)

/-- … so its block is the whole array. -/
theorem iblk0_3 (c : Dev nD) (t : Fin cfg0.N) : iblk0 V c 3 t = V c (Pipeline.arrRef spec0 3) := by
  obtain ⟨e0, e1⟩ := idx3 t
  funext j
  show V c (Pipeline.arrRef spec0 3) (((cfg0.win 3).blk t).view.emb j) = V c (Pipeline.arrRef spec0 3) j
  refine congrArg (V c (Pipeline.arrRef spec0 3)) (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- The block index of input window 4 is `0` at every point … -/
theorem idx4 : ∀ t : Fin cfg0.N, win0_4.index t (0 : Fin 1) = 0 :=
  (by decide +kernel : ∀ t : Fin grid0.N, _)

/-- … so its block is the whole array. -/
theorem iblk0_4 (c : Dev nD) (t : Fin cfg0.N) : iblk0 V c 4 t = V c (Pipeline.arrRef spec0 4) := by
  have e0 := idx4 t
  funext j
  show V c (Pipeline.arrRef spec0 4) (((cfg0.win 4).blk t).view.emb j) = V c (Pipeline.arrRef spec0 4) j
  refine congrArg (V c (Pipeline.arrRef spec0 4)) (funext fun a => Fin.ext ?_)
  match a with
  | ⟨0, _⟩ => show win0_4.index t (0 : Fin 1) * 128 + 1 * (j 0).val = (j 0).val; omega

/-- The block index of input window 5 is `(0, 0)` at every point … -/
theorem idx5 : ∀ t : Fin cfg0.N, win0_5.index t (0 : Fin 2) = 0 ∧ win0_5.index t (1 : Fin 2) = 0 :=
  (by decide +kernel : ∀ t : Fin grid0.N, _)

/-- … so its block is the whole array. -/
theorem iblk0_5 (c : Dev nD) (t : Fin cfg0.N) : iblk0 V c 5 t = V c (Pipeline.arrRef spec0 5) := by
  obtain ⟨e0, e1⟩ := idx5 t
  funext j
  show V c (Pipeline.arrRef spec0 5) (((cfg0.win 5).blk t).view.emb j) = V c (Pipeline.arrRef spec0 5) j
  refine congrArg (V c (Pipeline.arrRef spec0 5)) (funext fun a => Fin.ext ?_)
  match a with
  | ⟨0, _⟩ => show win0_5.index t (0 : Fin 2) * 128 + 1 * (j 0).val = (j 0).val; omega
  | ⟨1, _⟩ => show win0_5.index t (1 : Fin 2) * 128 + 1 * (j 1).val = (j 1).val; omega

/-- The block index of input window 6 is `0` at every point … -/
theorem idx6 : ∀ t : Fin cfg0.N, win0_6.index t (0 : Fin 1) = 0 :=
  (by decide +kernel : ∀ t : Fin grid0.N, _)

/-- … so its block is the whole array. -/
theorem iblk0_6 (c : Dev nD) (t : Fin cfg0.N) : iblk0 V c 6 t = V c (Pipeline.arrRef spec0 6) := by
  have e0 := idx6 t
  funext j
  show V c (Pipeline.arrRef spec0 6) (((cfg0.win 6).blk t).view.emb j) = V c (Pipeline.arrRef spec0 6) j
  refine congrArg (V c (Pipeline.arrRef spec0 6)) (funext fun a => Fin.ext ?_)
  match a with
  | ⟨0, _⟩ => show win0_6.index t (0 : Fin 1) * 128 + 1 * (j 0).val = (j 0).val; omega

/-- The block index of input window 7 is `(0, 0)` at every point … -/
theorem idx7 : ∀ t : Fin cfg0.N, win0_7.index t (0 : Fin 2) = 0 ∧ win0_7.index t (1 : Fin 2) = 0 :=
  (by decide +kernel : ∀ t : Fin grid0.N, _)

/-- … so its block is the whole array. -/
theorem iblk0_7 (c : Dev nD) (t : Fin cfg0.N) : iblk0 V c 7 t = V c (Pipeline.arrRef spec0 7) := by
  obtain ⟨e0, e1⟩ := idx7 t
  funext j
  show V c (Pipeline.arrRef spec0 7) (((cfg0.win 7).blk t).view.emb j) = V c (Pipeline.arrRef spec0 7) j
  refine congrArg (V c (Pipeline.arrRef spec0 7)) (funext fun a => Fin.ext ?_)
  match a with
  | ⟨0, _⟩ => show win0_7.index t (0 : Fin 2) * 128 + 1 * (j 0).val = (j 0).val; omega
  | ⟨1, _⟩ => show win0_7.index t (1 : Fin 2) * 128 + 1 * (j 1).val = (j 1).val; omega

/-- The block index of input window 8 is `0` at every point … -/
theorem idx8 : ∀ t : Fin cfg0.N, win0_8.index t (0 : Fin 1) = 0 :=
  (by decide +kernel : ∀ t : Fin grid0.N, _)

/-- … so its block is the whole array. -/
theorem iblk0_8 (c : Dev nD) (t : Fin cfg0.N) : iblk0 V c 8 t = V c (Pipeline.arrRef spec0 8) := by
  have e0 := idx8 t
  funext j
  show V c (Pipeline.arrRef spec0 8) (((cfg0.win 8).blk t).view.emb j) = V c (Pipeline.arrRef spec0 8) j
  refine congrArg (V c (Pipeline.arrRef spec0 8)) (funext fun a => Fin.ext ?_)
  match a with
  | ⟨0, _⟩ => show win0_8.index t (0 : Fin 1) * 128 + 1 * (j 0).val = (j 0).val; omega

end Cert.KernelIdeal.Blocks0
-- ==== Proof.Acc.lean ====
/-
  The first kernel's accumulator, as a value.

  The kernel's body zeroes a `[64, 128]` scratch block, then runs four trips; trip `k` loads the `k`-th
  chunk of 64 matrices of its `[256, 64, 128]` input block, the gain and the shift, and the scratch block
  itself, and stores over the whole scratch block the old contents plus the chunk's normalised rows summed
  over the chunk. Every store covers the whole block, so what a later load reads is the payload of the most
  recent store, whatever lies beneath it. Hence the scratch contents after `k` trips obey the recursion
  `accAfter 0 = 0-fill`, `accAfter (k+1) = step (chunk k) (accAfter k)`, and the two results the body
  stores are the projection payloads of `accAfter 4`.
-/
import proofs.«169147_j1915555414566_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- The loop runs four trips. -/
theorem trips_eq : k0_t1_loop.trips = 4 := by decide

/-- A store over the whole block, last, decides what a read of the block sees. -/
theorem read_writes_whole {sig : RefSig} {κ : Kind} {sp : Space} {S : Shape} {e : EltTy} (v : View sig κ sp S e)
    {off : Fin S.rank → Nat} (h : off = fun _ => 0) (inb : ∀ a, off a + S.size a ≤ S.size a)
    (f : v.ty.Contents (Elt F)) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, by
    subst h; show y ∈ (Rect.whole S).set; rw [Rect.set_whole]; exact Finset.mem_univ y⟩)]
  exact View.canon_cons_unit_zero h inb w L

/-- The scratch block after `k` trips: zero-filled, then one accumulation step per trip over that trip's chunk. -/
def accAfter (x0 : Vec F S1x256x64x128 .f32) (x1 x2 : Vec F S128 .f32) : ℕ → Vec F S64x128 .f32
  | 0 => k0_pay2 (F := F)
  | k + 1 =>
    if h : k < k0_t1_loop.trips then
      k0_pay3 (View.ld x0 (Rect.unit (s := S1x256x64x128) (k0_off1 ⟨k, h⟩) S1x64x64x128.size (k0_off1_inb ⟨k, h⟩))) x1 x2 (accAfter x0 x1 x2 k)
    else accAfter x0 x1 x2 k

/-- One trip's found store: the step's payload over the whole scratch block, of the block's contents as found. -/
theorem tripL_eq (𝒱 : Variants) (c : Dev nD) (bd : Option 𝒱.V) (i : grid0.Coords) (arg1 : Memref sig .tc .vmem S1x256x64x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole)
    (X1 : BufTy.Contents (Elt F) arg1.view.ty) (X2 : BufTy.Contents (Elt F) arg2.view.ty) (X3 : BufTy.Contents (Elt F) arg3.view.ty)
    (k : Fin k0_t1_loop.trips) (f : BufTy.Contents (Elt F) arg12.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 X1 X2 X3 k f
      = [⟨Rect.unit (s := S64x128) ![0, 0] S64x128.size inb_S64x128_S64x128_0_0,
          k0_pay3 (View.readAt (Elt F) arg1.view (Rect.unit (s := S1x256x64x128) (k0_off1 k) S1x64x64x128.size (k0_off1_inb k)).toLoadRect X1)
            (View.readAt (Elt F) arg2.view (Rect.unit (s := S128) ![0] S128.size inb_S128_S128_0).toLoadRect X2)
            (View.readAt (Elt F) arg3.view (Rect.unit (s := S128) ![0] S128.size inb_S128_S128_0).toLoadRect X3)
            (View.readAt (Elt F) arg12.view (Rect.unit (s := S64x128) ![0, 0] S64x128.size inb_S64x128_S64x128_0_0).toLoadRect f)⟩] := by
  unfold tripL_k0_t1
  unfold trip_k0_t1
  rfl

/-- What a read of the scratch block sees after `k` trips over the zero-fill: `accAfter k`. -/
theorem read_pb (c : Dev nD) (i : grid0.Coords) (arg1 : Memref sig .tc .vmem S1x256x64x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole)
    (x0 : Vec F S1x256x64x128 .f32) (x1 x2 : Vec F S128 .f32) (f₀ : BufTy.Contents (Elt F) arg12.view.ty) :
    ∀ (k : ℕ), k ≤ k0_t1_loop.trips →
      arg12.view.read (Elt F) (arg12.view.writes (Elt F) f₀
        (pb_k0_t1 (F := F) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (arg12.view.writes (Elt F) f₀ [(⟨Rect.unit (s := S64x128) ![0, 0] S64x128.size inb_S64x128_S64x128_0_0, k0_pay2 (F := F)⟩ : View.Piece (Elt F) S64x128 .f32)]) k ++ [(⟨Rect.unit (s := S64x128) ![0, 0] S64x128.size inb_S64x128_S64x128_0_0, k0_pay2 (F := F)⟩ : View.Piece (Elt F) S64x128 .f32)]))
        = accAfter x0 x1 x2 k
  | 0, _ => by
    rw [pb_k0_t1.eq_1, List.nil_append]
    exact read_writes_whole arg12.view hz2 _ f₀ _ []
  | k + 1, hk => by
    have hlt : k < k0_t1_loop.trips := hk
    have ih := read_pb c i arg1 harg1 arg2 harg2 arg3 harg3 arg4 harg4 arg5 harg5 arg6 harg6 arg7 harg7 arg8 harg8 arg9 harg9 arg10 harg10 arg11 harg11 arg12 harg12 x0 x1 x2 f₀ k (Nat.le_of_lt hlt)
    rw [show k + 1 = (⟨k, hlt⟩ : Fin k0_t1_loop.trips).val + 1 from rfl, pb_k0_t1_succ, tripL_eq]
    simp only [List.cons_append, List.nil_append]
    rw [read_writes_whole arg12.view hz2 _ f₀ _ _]
    rw [accAfter, dif_pos hlt]
    simp only [View.readAt_eq_ld, harg1.read_unread, harg2.read_unread, harg3.read_unread, View.ld_unit_zero (S := S128) hz1,
      View.ld_unit_zero (S := S64x128) hz2]
    rw [← View.writes_append, ih]

/-- The first result block the body leaves: the left projection payload of the accumulator after the four trips. -/
theorem out9_eq (c : Dev nD) (i : grid0.Coords) (arg1 : Memref sig .tc .vmem S1x256x64x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (x0 : Vec F S1x256x64x128 .f32) (x1 : Vec F S128 .f32) (x2 : Vec F S128 .f32) (x3 : Vec F S128x128 .f32) (x4 : Vec F S128 .f32) (x5 : Vec F S128x128 .f32) (x6 : Vec F S128 .f32) (x7 : Vec F S128x128 .f32) (x8 : Vec F S128 .f32) :
    out0_A_9 (F := F) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8
      = k0_pay7 (accAfter x0 x1 x2 k0_t1_loop.trips) x3 x7 x4 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_words
  rw [View.canon_unit_zero hz2]
  simp only [View.readAt_eq_ld, harg4.read_unread, harg5.read_unread, harg8.read_unread, harg9.read_unread,
    View.ld_unit_zero (S := S128x128) hz2, View.ld_unit_zero (S := S128) hz1, View.ld_unit_zero (S := S64x128) hz2]
  exact congrArg (fun a => k0_pay7 a x3 x7 x4 x8) (read_pb c i arg1 harg1 arg2 harg2 arg3 harg3 arg4 harg4 arg5 harg5 arg6 harg6 arg7 harg7 arg8 harg8 arg9 harg9 arg10 harg10 arg11 harg11 arg12 harg12 x0 x1 x2 arg12.view.junk k0_t1_loop.trips le_rfl)

/-- The second result block the body leaves: the right projection payload of the same accumulator. -/
theorem out10_eq (c : Dev nD) (i : grid0.Coords) (arg1 : Memref sig .tc .vmem S1x256x64x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (x0 : Vec F S1x256x64x128 .f32) (x1 : Vec F S128 .f32) (x2 : Vec F S128 .f32) (x3 : Vec F S128x128 .f32) (x4 : Vec F S128 .f32) (x5 : Vec F S128x128 .f32) (x6 : Vec F S128 .f32) (x7 : Vec F S128x128 .f32) (x8 : Vec F S128 .f32) :
    out0_A_10 (F := F) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8
      = k0_pay1 (k0_pay5 x7) (k0_pay6 (accAfter x0 x1 x2 k0_t1_loop.trips) x5 x6) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_words
  rw [View.canon_unit_zero hz2]
  simp only [View.readAt_eq_ld, harg6.read_unread, harg7.read_unread, harg8.read_unread,
    View.ld_unit_zero (S := S128x128) hz2, View.ld_unit_zero (S := S128) hz1, View.ld_unit_zero (S := S64x128) hz2]
  exact congrArg (fun a => k0_pay1 (k0_pay5 x7) (k0_pay6 a x5 x6)) (read_pb c i arg1 harg1 arg2 harg2 arg3 harg3 arg4 harg4 arg5 harg5 arg6 harg6 arg7 harg7 arg8 harg8 arg9 harg9 arg10 harg10 arg11 harg11 arg12 harg12 x0 x1 x2 arg12.view.junk k0_t1_loop.trips le_rfl)

end Cert.KernelIdeal.Acc

end
-- ==== Proof.LibRowBcast3.lean ====
/-
  Library-only lemmas: a vector laid along the last axis of a rank-3 array, read at an index given by coordinates,
  for any element type and any extents.

  * a shape cast `[c] → [1, 1, c]` reads the operand at the last coordinate (`shapeCast_c_11c_apply`);
  * a broadcast `[1, 1, c] → [a, b, c]` reads the operand with `0` on the two unit axes
    (`broadcastTo_11c_abc_apply`), whatever `c` is.
  Indices are built with `ix1` / `ix3` from coordinates of literal `Fin` types.
-/
import Idealize.ShloMosaic.Lib.Pipeline.Value
import Idealize.ShloMosaic.Lib.ValueIdx

namespace Cert.Lib.RowBcast3

open Idealize.ShloMosaic Idealize.ShloMosaic.ValueIdx

variable {α : Type}

/-- A `[c]` array cast to `[1, 1, c]` reads, at `(u, v, j)`, the operand at `j`. -/
theorem shapeCast_c_11c_apply {c : ℕ} (x : (⟨1, ![c]⟩ : Shape).Idx → α)
    (h : (⟨1, ![c]⟩ : Shape).ShapeCasts ⟨3, ![1, 1, c]⟩) (u v : Fin 1) (j : Fin c) :
    shapeCast ⟨3, ![1, 1, c]⟩ x h (ix3 u v j) = x (ix1 j) :=
  shapeCast_apply x h _ _ (by
    have hu : u.val = 0 := by omega
    have hv : v.val = 0 := by omega
    rw [Shape.rowMajor_val_three, Shape.rowMajor_val_one]
    show j.val = (u.val * 1 + v.val) * c + j.val
    rw [hu, hv]
    simp)

/-- A `[1, 1, c]` array broadcast to `[a, b, c]` reads, at `(p, i, j)`, the operand at `(0, 0, j)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (i : Fin b) (j : Fin c) :
    broadcastTo ⟨3, ![a, b, c]⟩ x h (ix3 p i j) = x (ix3 (0 : Fin 1) (0 : Fin 1) j) := by
  refine broadcastTo_apply x h (ix3 p i j) (ix3 (0 : Fin 1) (0 : Fin 1) j) fun ax => ?_
  match ax with
  | ⟨0, _⟩ =>
    show 0 = if (1 : ℕ) = 1 then 0 else p.val
    rw [if_pos rfl]
  | ⟨1, _⟩ =>
    show 0 = if (1 : ℕ) = 1 then 0 else i.val
    rw [if_pos rfl]
  | ⟨2, _⟩ =>
    show j.val = if c = 1 then 0 else j.val
    split
    · have := j.isLt; omega
    · rfl

end Cert.Lib.RowBcast3
-- ==== Proof.PayLN.lean ====
/-
  The first kernel's accumulation step, read at an index over the extended reals.

  One trip takes a chunk `y` of 64 matrices (`[64, 64, 128]`: matrix, row, column), the gain `g`, the shift
  `b` and the old accumulator `a` (`[64, 128]`), and returns `a + ∑ over the 64 matrices of LayerNorm(y)`.
  LayerNorm of a row: the row's mean (its sum over the 128 columns divided by the word 128, kept as a unit
  axis and broadcast back), the centred row, the mean of its squares, `rsqrt` of that plus ε, and
  `centred · rsqrt · g + b`. Read at `(r, d)` the step is `a r d + ∑ m, rowXn (y m r ·) g b d`.
-/
import proofs.«169147_j1915555414566_2_alg».proof.Proof.Gen.KernelIdeal.Skeleton
import proofs.«169147_j1915555414566_2_alg».proof.Proof.Spec
import proofs.«169147_j1915555414566_2_alg».proof.Proof.LibKeepdims
import proofs.«169147_j1915555414566_2_alg».proof.Proof.LibRowBcast3
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.PayLN

open Idealize.ShloMosaic Idealize.ShloMosaic.ValueIdx Cert.KernelIdeal Cert.KernelIdeal.Gen Cert.Spec
open Cert.Lib.Keepdims Cert.Lib.RowBcast3

/-! ## LayerNorm of one row of 128 entries -/

/-- The mean of a row. -/
def rowMu (row : Fin 128 → EReal) : EReal := Ideal.div (∑ d : Fin 128, row d) w128
/-- The variance of a row. -/
def rowVar (row : Fin 128 → EReal) : EReal := Ideal.div (∑ d : Fin 128, (row d - rowMu row) * (row d - rowMu row)) w128
/-- The normalised row. -/
def rowXn (row g b : Fin 128 → EReal) (d : Fin 128) : EReal :=
  (row d - rowMu row) * Ideal.rsqrt (rowVar row + wEps) * g d + b d

/-- The specification's normalised entry is the row form at row `(m, i)`. -/
theorem xn_eq_rowXn (X : Fin 256 → Fin 512 → Fin 128 → EReal) (g b : Fin 128 → EReal) (m : Fin 256) (i : Fin 512) (d : Fin 128) :
    xn X g b m i d = rowXn (X m i) g b d := rfl

/-! ## The two sums -/

/-- The sum over the columns of a `[64, 64, 128]` block, at (matrix, row). -/
theorem sumLast_apply (y : FVec Ideal S64x64x128 .f32) (m r : Fin 64) :
    multiReduction .add [2] S64x64 y 0x00000000#32 reduces_S64x64x128_S64x64 (.inl rfl) rfl (ix2 m r)
      = ∑ k : Fin 128, y (ix3 m r k) := by
  refine (Ideal.multiReduction_add_single y 0x00000000#32 reduces_S64x64x128_S64x64 (.inl rfl) rfl (ix2 m r)).trans ?_
  exact Finset.sum_congr rfl fun k _ => congrArg y (funext fun a => Fin.ext (by
    match a with | ⟨0, _⟩ => rfl | ⟨1, _⟩ => rfl | ⟨2, _⟩ => rfl))

/-- The sum over the matrices of a `[64, 64, 128]` block, at (row, column). -/
theorem sumFirst_apply (y : FVec Ideal S64x64x128 .f32) (r : Fin 64) (d : Fin 128) :
    multiReduction .add [0] S64x128 y 0x00000000#32 reduces_S64x64x128_S64x128 (.inl rfl) rfl (ix2 r d)
      = ∑ m : Fin 64, y (ix3 m r d) := by
  refine (Ideal.multiReduction_add_single y 0x00000000#32 reduces_S64x64x128_S64x128 (.inl rfl) rfl (ix2 r d)).trans ?_
  exact Finset.sum_congr rfl fun k _ => congrArg y (funext fun a => Fin.ext (by
    match a with | ⟨0, _⟩ => rfl | ⟨1, _⟩ => rfl | ⟨2, _⟩ => rfl))

/-! ## The step's pieces, as the body spells them -/

/-- The mean over the columns, kept as a unit axis. -/
def meanB (y : FVec Ideal S64x64x128 .f32) : FVec Ideal S64x64x1 .f32 :=
  divf (shapeCast S64x64x1 (multiReduction .add [2] S64x64 y 0x00000000#32 reduces_S64x64x128_S64x64 (.inl rfl) rfl) shapeCasts_S64x64_S64x64x1)
    (broadcast S64x64x1 (Scalar.ofBits .f32 0x43000000#32))

theorem meanB_apply (y : FVec Ideal S64x64x128 .f32) (m r : Fin 64) (u : Fin 1) :
    meanB y (ix3 m r u) = Ideal.div (∑ k : Fin 128, y (ix3 m r k)) w128 := by
  unfold meanB
  rw [divf_apply, shapeCast_ab_ab1_apply, sumLast_apply]
  rfl

/-- The centred block. -/
def xc (y : FVec Ideal S64x64x128 .f32) : FVec Ideal S64x64x128 .f32 :=
  subf y (broadcastTo S64x64x128 (meanB y) broadcasts_S64x64x1_S64x64x128)

theorem xc_apply (y : FVec Ideal S64x64x128 .f32) (m r : Fin 64) (d : Fin 128) :
    xc y (ix3 m r d) = y (ix3 m r d) - rowMu (fun k => y (ix3 m r k)) := by
  unfold xc
  rw [subf_apply, broadcastTo_ab1_abc_apply (by decide) (by decide), meanB_apply]
  rfl

/-- The scale `rsqrt (var + ε)`, kept as a unit axis. -/
def rs (y : FVec Ideal S64x64x128 .f32) : FVec Ideal S64x64x1 .f32 :=
  rsqrt (addf (meanB (mulf (xc y) (xc y))) (broadcast S64x64x1 (Scalar.ofBits .f32 0x3727C5AC#32)))

theorem rs_apply (y : FVec Ideal S64x64x128 .f32) (m r : Fin 64) (u : Fin 1) :
    rs y (ix3 m r u) = Ideal.rsqrt (rowVar (fun k => y (ix3 m r k)) + wEps) := by
  unfold rs
  show Ideal.rsqrt (addf (meanB (mulf (xc y) (xc y))) (broadcast S64x64x1 (Scalar.ofBits .f32 0x3727C5AC#32)) (ix3 m r u)) = _
  rw [addf_apply, meanB_apply]
  refine congrArg (fun s => Ideal.rsqrt (Ideal.div s w128 + wEps)) (Finset.sum_congr rfl fun k _ => ?_)
  rw [mulf_apply, xc_apply]

/-- LayerNorm of the whole chunk. -/
def lnBlock (y : FVec Ideal S64x64x128 .f32) (g b : Vec Ideal S128 .f32) : FVec Ideal S64x64x128 .f32 :=
  addf (mulf (mulf (xc y) (broadcastTo S64x64x128 (rs y) broadcasts_S64x64x1_S64x64x128))
      (broadcastTo S64x64x128 (shapeCast S1x1x128 g shapeCasts_S128_S1x1x128) broadcasts_S1x1x128_S64x64x128))
    (broadcastTo S64x64x128 (shapeCast S1x1x128 b shapeCasts_S128_S1x1x128) broadcasts_S1x1x128_S64x64x128)

theorem lnBlock_apply (y : FVec Ideal S64x64x128 .f32) (g b : Vec Ideal S128 .f32) (m r : Fin 64) (d : Fin 128) :
    lnBlock y g b (ix3 m r d) = rowXn (fun k => y (ix3 m r k)) (fun k => g (ix1 k)) (fun k => b (ix1 k)) d := by
  unfold lnBlock
  rw [addf_apply, mulf_apply, mulf_apply, xc_apply, broadcastTo_ab1_abc_apply (by decide) (by decide), rs_apply,
    broadcastTo_11c_abc_apply, shapeCast_c_11c_apply, broadcastTo_11c_abc_apply, shapeCast_c_11c_apply]
  rfl

/-- The step is the old accumulator plus the chunk's LayerNorm summed over its matrices. -/
theorem pay3_eq (v38 : Vec Ideal S1x64x64x128 .f32) (g b : Vec Ideal S128 .f32) (a : Vec Ideal S64x128 .f32) :
    k0_pay3 (F := Ideal) v38 g b a
      = shapeCast S64x128 (addf a (multiReduction .add [0] S64x128
          (lnBlock (shapeCast S64x64x128 v38 shapeCasts_S1x64x64x128_S64x64x128) g b) 0x00000000#32 reduces_S64x64x128_S64x128 (.inl rfl) rfl))
          shapeCasts_S64x128_S64x128 := rfl

/-- The step at `(r, d)`. -/
theorem pay3_apply (v38 : Vec Ideal S1x64x64x128 .f32) (g b : Vec Ideal S128 .f32) (a : Vec Ideal S64x128 .f32) (r : Fin 64) (d : Fin 128) :
    k0_pay3 (F := Ideal) v38 g b a (ix2 r d)
      = a (ix2 r d) + ∑ m : Fin 64, rowXn (fun k => v38 (ix4 (0 : Fin 1) m r k)) (fun k => g (ix1 k)) (fun k => b (ix1 k)) d := by
  rw [pay3_eq, shapeCast_self, addf_apply, sumFirst_apply]
  refine congrArg (a (ix2 r d) + ·) (Finset.sum_congr rfl fun m _ => ?_)
  rw [lnBlock_apply]
  refine congrArg (fun row => rowXn row (fun k => g (ix1 k)) (fun k => b (ix1 k)) d) (funext fun k => ?_)
  exact shapeCast_1abc_abc_apply v38 _ m r k

end Cert.KernelIdeal.PayLN

end
-- ==== Proof.PayProj.lean ====
/-
  The kernel's projection arithmetic, read at an index over the extended reals.

  After the loop the first kernel holds a `[64, 128]` accumulator `a`. It scales it by the word `2⁻⁸`, and
  multiplies the scaled block by a `[128, 128]` matrix, adds a bias row, multiplies by a second matrix, and
  (for the left result only) adds a second bias row. A matrix product into a zero accumulator is, entry by
  entry, the plain sum over the contracted coordinate; a change of float format is the identity; a `[128]`
  row cast to `[1, 128]` and broadcast down 64 rows reads the row's entry at the column.
-/
import proofs.«169147_j1915555414566_2_alg».proof.Proof.Gen.KernelIdeal.Skeleton
import proofs.«169147_j1915555414566_2_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Pay

open Idealize.ShloMosaic Idealize.ShloMosaic.ValueIdx Cert.KernelIdeal Cert.KernelIdeal.Gen Cert.Spec

/-- The product's operand indices: the left factor is read at (row of the result, contracted coordinate), the right
    factor at (contracted coordinate, column of the result). -/
theorem lhs0 (i : S64x128.Idx) (q : dot_S64x128_S128x128_S64x128_1_0_0_1_n_n.contr.Idx) : (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide),
    dif_pos (show (0 : Fin S64x128.rank) ∈ dot_S64x128_S128x128_S64x128_1_0_0_1_n_n.lhsNonContracting by decide)]
  rfl
theorem lhs1 (i : S64x128.Idx) (q : dot_S64x128_S128x128_S64x128_1_0_0_1_n_n.contr.Idx) : (dot_S64x128_S128x128_S64x128_1_0_0_1_n_n.lhsIdx i q 1).val = (q ⟨0, by decide⟩).val :=
  dot_S64x128_S128x128_S64x128_1_0_0_1_n_n.lhsIdx_val_of_single rfl i q
theorem rhs0 (i : S64x128.Idx) (q : dot_S64x128_S128x128_S64x128_1_0_0_1_n_n.contr.Idx) : (dot_S64x128_S128x128_S64x128_1_0_0_1_n_n.rhsIdx i q 0).val = (q ⟨0, by decide⟩).val :=
  dot_S64x128_S128x128_S64x128_1_0_0_1_n_n.rhsIdx_val_of_single rfl i q
theorem rhs1 (i : S64x128.Idx) (q : dot_S64x128_S128x128_S64x128_1_0_0_1_n_n.contr.Idx) : (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide),
    dif_pos (show (1 : Fin S128x128.rank) ∈ dot_S64x128_S128x128_S64x128_1_0_0_1_n_n.rhsNonContracting by decide)]
  rfl

/-- The `[64, 128] × [128, 128]` product into a zero accumulator, at `(r, d)`: the sum over the contracted
    coordinate `k` of the left factor at `(r, k)` times the right factor at `(k, d)`. -/
theorem mm_apply {φ₁ φ₂ : FTy} (lhs : FVec Ideal S64x128 φ₁) (rhs : FVec Ideal S128x128 φ₂) (r : Fin 64) (d : Fin 128) :
    matmul dot_S64x128_S128x128_S64x128_1_0_0_1_n_n none lhs rhs (constant (F := Ideal) S64x128 .f32 0x00000000#32) (ix2 r d)
      = ∑ k : Fin 128, lhs (ix2 r k) * rhs (ix2 k d) := by
  simp only [matmul]
  rw [Ideal.matmul_constant_zero_apply, ← Equiv.sum_comp (ValueIdx.contrEquiv1 dot_S64x128_S128x128_S64x128_1_0_0_1_n_n 128 rfl rfl).symm]
  refine Finset.sum_congr rfl fun k _ => ?_
  have hk := ValueIdx.contrEquiv1_symm_val dot_S64x128_S128x128_S64x128_1_0_0_1_n_n 128 rfl rfl k
  have el : dot_S64x128_S128x128_S64x128_1_0_0_1_n_n.lhsIdx (ix2 r d) ((ValueIdx.contrEquiv1 dot_S64x128_S128x128_S64x128_1_0_0_1_n_n 128 rfl rfl).symm k) = ix2 r k :=
    funext fun a => Fin.ext (by
      match a with
      | ⟨0, _⟩ => exact lhs0 _ _
      | ⟨1, _⟩ => exact (lhs1 _ _).trans hk)
  have er : dot_S64x128_S128x128_S64x128_1_0_0_1_n_n.rhsIdx (ix2 r d) ((ValueIdx.contrEquiv1 dot_S64x128_S128x128_S64x128_1_0_0_1_n_n 128 rfl rfl).symm k) = ix2 k d :=
    funext fun a => Fin.ext (by
      match a with
      | ⟨0, _⟩ => exact (rhs0 _ _).trans hk
      | ⟨1, _⟩ => exact rhs1 _ _)
  rw [el, er]

/-- A `[128]` row cast to `[1, 128]` and broadcast down the 64 rows reads, at `(r, d)`, the row at `d`. -/
theorem rowBcast_apply (v : FVec Ideal S128 .f32) (r : Fin 64) (d : Fin 128) :
    broadcastTo S64x128 (shapeCast S1x128 v shapeCasts_S128_S1x128) broadcasts_S1x128_S64x128 (ix2 r d) = v (ix1 d) := by
  rw [broadcastTo_1b_ab_apply, shapeCast_a_1a_apply]

/-- The accumulator's first contents: zero everywhere. -/
theorem pay2_apply (p : S64x128.Idx) : k0_pay2 (F := Ideal) p = 0 := by
  unfold k0_pay2
  rw [shapeCast_self]
  exact Ideal.ofBits_zero_f32

/-- The scaled accumulator: the accumulator times the word `2⁻⁸`. -/
theorem pay4_apply (a : Vec Ideal S64x128 .f32) (p : S64x128.Idx) : k0_pay4 (F := Ideal) a p = a p * wInv256 := rfl

/-- The left result: `∑ h, (∑ d', (a r d' · 2⁻⁸) · W d' h + bias h) · Wo h d + bo d`. -/
theorem pay7_apply (a : Vec Ideal S64x128 .f32) (w wo : Vec Ideal S128x128 .f32) (bias bo : Vec Ideal S128 .f32) (r : Fin 64) (d : Fin 128) :
    k0_pay7 (F := Ideal) a w wo bias bo (ix2 r d)
      = ∑ h : Fin 128, (∑ d' : Fin 128, (a (ix2 r d') * wInv256) * w (ix2 d' h) + bias (ix1 h)) * wo (ix2 h d) + bo (ix1 d) := by
  unfold k0_pay7 k0_pay5
  rw [addf_apply, rowBcast_apply, mm_apply]
  refine congrArg (· + bo (ix1 d)) (Finset.sum_congr rfl fun h _ => ?_)
  rw [truncf_apply, truncf_apply, addf_apply, rowBcast_apply, mm_apply]
  refine congrArg (fun s => (s + bias (ix1 h)) * wo (ix2 h d)) (Finset.sum_congr rfl fun d' _ => ?_)
  rw [truncf_apply, pay4_apply]

/-- The right result: `∑ h, (∑ d', (a r d' · 2⁻⁸) · W d' h + bias h) · Wo h d`. -/
theorem pay1_apply (a : Vec Ideal S64x128 .f32) (w wo : Vec Ideal S128x128 .f32) (bias : Vec Ideal S128 .f32) (r : Fin 64) (d : Fin 128) :
    k0_pay1 (F := Ideal) (k0_pay5 (F := Ideal) wo) (k0_pay6 (F := Ideal) a w bias) (ix2 r d)
      = ∑ h : Fin 128, (∑ d' : Fin 128, (a (ix2 r d') * wInv256) * w (ix2 d' h) + bias (ix1 h)) * wo (ix2 h d) := by
  unfold k0_pay1 k0_pay5 k0_pay6
  rw [mm_apply]
  refine Finset.sum_congr rfl fun h _ => ?_
  rw [truncf_apply, truncf_apply, addf_apply, rowBcast_apply, mm_apply]
  refine congrArg (fun s => (s + bias (ix1 h)) * wo (ix2 h d)) (Finset.sum_congr rfl fun d' _ => ?_)
  rw [truncf_apply, pay4_apply]

end Cert.KernelIdeal.Pay

end
-- ==== Proof.AccValue.lean ====
/-
  The first kernel's accumulator after its four trips, read at an index, is the specification's accumulator.

  Trip `k` loads the `k`-th chunk of 64 consecutive matrices of the `[1, 256, 64, 128]` block: the chunk's
  entry at (matrix `m'`, row `r`, column `d'`) is the block's entry at matrix `64 k + m'`, because the load's
  rectangle starts at `(0, 64 k, 0, 0)` and has unit strides. One trip therefore adds, at `(r, d)`, the sum over
  the chunk of the normalised entries of row `r` — the specification's `chunkSum` at `k` once row `r` of the
  block is known to be row `i` of the whole stack. Four trips from the zero fill give the left-nested sum
  `(((0 + c₀) + c₁) + c₂) + c₃`, which is the specification's `acc` as written.
-/
import proofs.«169147_j1915555414566_2_alg».proof.Proof.Acc
import proofs.«169147_j1915555414566_2_alg».proof.Proof.PayLN
import proofs.«169147_j1915555414566_2_alg».proof.Proof.PayProj

noncomputable section

namespace Cert.KernelIdeal.AccValue

open Idealize.ShloMosaic Idealize.ShloMosaic.ValueIdx Cert.KernelIdeal Cert.KernelIdeal.Gen

/-- A coordinate of the `k`-th chunk's rectangle: the offset `(0, 64 k, 0, 0)` plus the chunk's own coordinate. -/
theorem unit_idx_val (k : Fin k0_t1_loop.trips) (j : S1x64x64x128.Idx) (a : Fin 4) :
    ((Rect.unit (s := S1x256x64x128) (k0_off1 k) S1x64x64x128.size (k0_off1_inb k)).idx j a : ℕ)
      = (![0, 64 * k.val, 0, 0] : Fin 4 → ℕ) a + (j a : ℕ) := by
  rw [LoadRect.idx_apply, Rect.off_unit, Rect.stride_unit, Nat.one_mul]
  exact congrArg (fun o : Fin 4 → ℕ => o a + (j a : ℕ)) (Gen.k0_off1_eq k)

/-- A chunk read at an index: matrix `m'` of the `k`-th chunk is matrix `64 k + m'` of the block. -/
theorem chunk_apply (x0 : Vec Ideal S1x256x64x128 .f32) (k : Fin k0_t1_loop.trips) (m' r : Fin 64) (d' : Fin 128) :
    (View.ld x0 (Rect.unit (s := S1x256x64x128) (k0_off1 k) S1x64x64x128.size (k0_off1_inb k)) : Vec Ideal S1x64x64x128 .f32)
        (ix4 (0 : Fin 1) m' r d')
      = x0 (ix4 (0 : Fin 1)
          (⟨64 * k.val + m'.val, by have h1 := k.isLt; have h2 := Acc.trips_eq; have h3 := m'.isLt; omega⟩ : Fin 256) r d') := by
  show x0 _ = x0 _
  refine congrArg x0 (funext fun a => Fin.ext ?_)
  rw [unit_idx_val]
  match a with
  | ⟨0, _⟩ => rfl
  | ⟨1, _⟩ => rfl
  | ⟨2, _⟩ => exact Nat.zero_add _
  | ⟨3, _⟩ => exact Nat.zero_add _

section Rows

variable (x0 : Vec Ideal S1x256x64x128 .f32) (x1 x2 : Vec Ideal S128 .f32)
  (X : Fin 256 → Fin 512 → Fin 128 → EReal) (r : Fin 64) (i : Fin 512)
  (hX : ∀ (m : Fin 256) (d' : Fin 128), x0 (ix4 (0 : Fin 1) m r d') = X m i d')

include hX

/-- One trip: the accumulator gains the specification's `k`-th chunk sum. -/
theorem accAfter_succ_apply (k : ℕ) (h : k < k0_t1_loop.trips) (d : Fin 128) :
    Acc.accAfter (F := Ideal) x0 x1 x2 (k + 1) (ix2 r d)
      = Acc.accAfter (F := Ideal) x0 x1 x2 k (ix2 r d)
        + Spec.chunkSum X (Spec.cV x1) (Spec.cV x2) (⟨k, by have h2 := Acc.trips_eq; omega⟩ : Fin 4) i d := by
  rw [Acc.accAfter, dif_pos h, PayLN.pay3_apply, Spec.chunkSum]
  refine congrArg (_ + ·) (Finset.sum_congr rfl fun m' _ => ?_)
  rw [PayLN.xn_eq_rowXn]
  refine congrArg (fun row => PayLN.rowXn row _ _ d) (funext fun d' => ?_)
  exact (chunk_apply x0 ⟨k, h⟩ m' r d').trans (hX _ d')

/-- After the four trips the accumulator, read at `(r, d)`, is the specification's `acc` at `(i, d)`. -/
theorem accAfter_apply (d : Fin 128) :
    Acc.accAfter (F := Ideal) x0 x1 x2 k0_t1_loop.trips (ix2 r d) = Spec.acc X (Spec.cV x1) (Spec.cV x2) i d := by
  have z : Acc.accAfter (F := Ideal) x0 x1 x2 0 (ix2 r d) = 0 := by
    rw [Acc.accAfter]; exact Pay.pay2_apply _
  have s0 : Acc.accAfter (F := Ideal) x0 x1 x2 1 (ix2 r d)
      = Acc.accAfter (F := Ideal) x0 x1 x2 0 (ix2 r d) + Spec.chunkSum X (Spec.cV x1) (Spec.cV x2) 0 i d :=
    accAfter_succ_apply x0 x1 x2 X r i hX 0 (by rw [Acc.trips_eq]; norm_num) d
  have s1 : Acc.accAfter (F := Ideal) x0 x1 x2 2 (ix2 r d)
      = Acc.accAfter (F := Ideal) x0 x1 x2 1 (ix2 r d) + Spec.chunkSum X (Spec.cV x1) (Spec.cV x2) 1 i d :=
    accAfter_succ_apply x0 x1 x2 X r i hX 1 (by rw [Acc.trips_eq]; norm_num) d
  have s2 : Acc.accAfter (F := Ideal) x0 x1 x2 3 (ix2 r d)
      = Acc.accAfter (F := Ideal) x0 x1 x2 2 (ix2 r d) + Spec.chunkSum X (Spec.cV x1) (Spec.cV x2) 2 i d :=
    accAfter_succ_apply x0 x1 x2 X r i hX 2 (by rw [Acc.trips_eq]; norm_num) d
  have s3 : Acc.accAfter (F := Ideal) x0 x1 x2 4 (ix2 r d)
      = Acc.accAfter (F := Ideal) x0 x1 x2 3 (ix2 r d) + Spec.chunkSum X (Spec.cV x1) (Spec.cV x2) 3 i d :=
    accAfter_succ_apply x0 x1 x2 X r i hX 3 (by rw [Acc.trips_eq]; norm_num) d
  rw [Acc.trips_eq, s3, s2, s1, s0, z, Spec.acc]

end Rows

end Cert.KernelIdeal.AccValue

end
-- ==== Proof.Rows0.lean ====
/-
  The first pallas_call's two output blocks, row by row.

  At grid point `t` the kernel holds rows `64·t … 64·t + 63` of every matrix of the stack and the whole of
  the other eight arrays. Row `r` of the accumulator after the four trips is the specification's accumulated
  normalised row `64·t + r`; the two blocks the body stores are the projection payloads of that accumulator;
  so row `r` of the first block is row `64·t + r` of `kerL`, and of the second block the same row of `kerR`.
-/
import proofs.«169147_j1915555414566_2_alg».proof.Proof.Acc
import proofs.«169147_j1915555414566_2_alg».proof.Proof.AccValue
import proofs.«169147_j1915555414566_2_alg».proof.Proof.PayProj
import proofs.«169147_j1915555414566_2_alg».proof.Proof.Blocks0
import proofs.«169147_j1915555414566_2_alg».proof.Proof.Spec

noncomputable section

namespace Cert.KernelIdeal.Rows0

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- Row `r` of the accumulator at point `t` is the specification's accumulated row `64·t + r`. -/
theorem acc_row (c : Dev nD) (t : Fin cfg0.N) (r : Fin 64) (d : Fin 128) :
    Acc.accAfter (F := Ideal) (iblk0 V c 0 t) (iblk0 V c 1 t) (iblk0 V c 2 t) k0_t1_loop.trips (ix2 r d)
      = Spec.acc (Spec.cX (V c main_arg0)) (Spec.cV (V c main_arg1)) (Spec.cV (V c main_arg2))
          (⟨64 * t.val + r.val, Blocks0.row_lt t r⟩ : Fin 512) d := by
  rw [Blocks0.iblk0_1 V c t, Blocks0.iblk0_2 V c t]
  exact AccValue.accAfter_apply (iblk0 V c 0 t) (V c (Pipeline.arrRef spec0 1)) (V c (Pipeline.arrRef spec0 2))
    (Spec.cX (V c main_arg0)) r (⟨64 * t.val + r.val, Blocks0.row_lt t r⟩ : Fin 512)
    (fun m d' => Blocks0.iblk0_0_apply V c t m r d') d

/-- Row `r` of the first output block at point `t` is row `64·t + r` of `kerL`. -/
theorem rows9 (c : Dev nD) (t : Fin cfg0.N) (r : Fin 64) (d : Fin 128) :
    (outsAt0 V c t).1 (ix2 r d)
      = Spec.kerLArr (V c main_arg0) (V c main_arg1) (V c main_arg2) (V c main_arg3) (V c main_arg4) (V c main_arg7) (V c main_arg8)
          (ix2 (⟨64 * t.val + r.val, Blocks0.row_lt t r⟩ : Fin 512) d) := by
  have e := Acc.out9_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t)
  refine (congrFun e (ix2 r d)).trans ?_
  refine (Pay.pay7_apply (Acc.accAfter (F := Ideal) (iblk0 V c 0 t) (iblk0 V c 1 t) (iblk0 V c 2 t) k0_t1_loop.trips)
    (iblk0 V c 3 t) (iblk0 V c 7 t) (iblk0 V c 4 t) (iblk0 V c 8 t) r d).trans ?_
  rw [Blocks0.iblk0_3 V c t, Blocks0.iblk0_4 V c t, Blocks0.iblk0_7 V c t, Blocks0.iblk0_8 V c t]
  unfold Spec.kerLArr Spec.kerL Spec.projK Spec.meanK
  refine congrArg₂ (· + ·) (Finset.sum_congr rfl fun h _ => ?_) rfl
  refine congrArg₂ (· * ·) (congrArg₂ (· + ·) (Finset.sum_congr rfl fun d' _ => ?_) rfl) rfl
  rw [acc_row V c t r d']
  rfl

/-- Row `r` of the second output block at point `t` is row `64·t + r` of `kerR`. -/
theorem rows10 (c : Dev nD) (t : Fin cfg0.N) (r : Fin 64) (d : Fin 128) :
    (outsAt0 V c t).2 (ix2 r d)
      = Spec.kerRArr (V c main_arg0) (V c main_arg1) (V c main_arg2) (V c main_arg5) (V c main_arg6) (V c main_arg7)
          (ix2 (⟨64 * t.val + r.val, Blocks0.row_lt t r⟩ : Fin 512) d) := by
  have e := Acc.out10_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t)
  refine (congrFun e (ix2 r d)).trans ?_
  refine (Pay.pay1_apply (Acc.accAfter (F := Ideal) (iblk0 V c 0 t) (iblk0 V c 1 t) (iblk0 V c 2 t) k0_t1_loop.trips)
    (iblk0 V c 5 t) (iblk0 V c 7 t) (iblk0 V c 6 t) r d).trans ?_
  rw [Blocks0.iblk0_5 V c t, Blocks0.iblk0_6 V c t, Blocks0.iblk0_7 V c t]
  unfold Spec.kerRArr Spec.kerR Spec.projK Spec.meanK
  refine Finset.sum_congr rfl fun h _ => ?_
  refine congrArg₂ (· * ·) (congrArg₂ (· + ·) (Finset.sum_congr rfl fun d' _ => ?_) rfl) rfl
  rw [acc_row V c t r d']
  rfl

end Cert.KernelIdeal.Rows0

end
-- ==== Proof.KernelValue.lean ====
/-
  The kernel's result array as a function of its argument arrays: after the two pallas_calls and the closing
  reshape, the result buffer holds the kernel arrangement of the specification (`Spec.kerArr`) of the nine
  argument arrays as launched. The second pallas_call and the reshape leave the broadcast sum of the first
  pallas_call's two output arrays; each of those is, block by block and row by row, `kerL` and `kerR`.
-/
import proofs.«169147_j1915555414566_2_alg».proof.Proof.Gen.KernelIdeal.Frame
import proofs.«169147_j1915555414566_2_alg».proof.Proof.Spec
import proofs.«169147_j1915555414566_2_alg».proof.Proof.Region1
import proofs.«169147_j1915555414566_2_alg».proof.Proof.Blocks0
import proofs.«169147_j1915555414566_2_alg».proof.Proof.Rows0

noncomputable section

namespace Cert.KernelIdeal.RunValue

open Idealize.ShloMosaic Idealize.ShloMosaic.TcCoe Idealize.SL.Sem Cert.KernelIdeal Cert.KernelIdeal.Gen

/-- The first pallas_call's first output array is `kerL` of the arguments. -/
theorem arr9 (m : (ℓ : Loc nD τ sig) → Buf (Elt Ideal) ℓ) (ρ : Dev nD → PrngReg) (c : Dev nD) :
    (Gen.dat0 (Gen.V0 m ρ) c).arrAt 9 cfg0.N
      = Cert.Spec.kerLArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) :=
  Blocks0.arr9_of_rows (Gen.V0 m ρ) c _ (fun t r d => Rows0.rows9 (Gen.V0 m ρ) c t r d)

/-- The first pallas_call's second output array is `kerR` of the arguments. -/
theorem arr10 (m : (ℓ : Loc nD τ sig) → Buf (Elt Ideal) ℓ) (ρ : Dev nD → PrngReg) (c : Dev nD) :
    (Gen.dat0 (Gen.V0 m ρ) c).arrAt 10 cfg0.N
      = Cert.Spec.kerRArr (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) :=
  Blocks0.arr10_of_rows (Gen.V0 m ρ) c _ (fun t r d => Rows0.rows10 (Gen.V0 m ρ) c t r d)

theorem kernel_value (m : (ℓ : Loc nD τ sig) → Buf (Elt Ideal) ℓ) (ρ : Dev nD → PrngReg) (c : Dev nD) :
    Gen.W3 m ρ c (Proc.devRef .tc main_v2)
      = Cert.Spec.kerArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [result_eq m ρ c, Cert.Spec.kerArr_eq_bsum4, arr9 m ρ c, arr10 m ρ c]

end Cert.KernelIdeal.RunValue

end
-- ==== Proof.lean ====
/-
  The five claims of the certificate. Each program runs and leaves its nine argument arrays as they were; the
  idealized kernel is the kernel's own text read over the extended reals, no operation rewritten. On finite inputs the
  idealized kernel's result array is the kernel arrangement of the specification — the normalised rows summed over
  the stack in four chunks, scaled by 2⁻⁸, projected, mapped through the output matrix and added — and the
  reference's result array is the reference arrangement — every row projected, the 256 projections averaged by a
  quotient by 256, added, mapped through the output matrix —; the two arrays are equal because every stage is linear
  in the normalised rows, which are real on finite inputs, and 2⁻⁸ = 1/256.
-/
import proofs.«169147_j1915555414566_2_alg».proof.Defs
import proofs.«169147_j1915555414566_2_alg».proof.Proof.Gen.Kernel
import proofs.«169147_j1915555414566_2_alg».proof.Proof.Gen.Kernel.Skeleton
import proofs.«169147_j1915555414566_2_alg».proof.Proof.Gen.Kernel.Loops
import proofs.«169147_j1915555414566_2_alg».proof.Proof.Gen.Kernel.Launch
import proofs.«169147_j1915555414566_2_alg».proof.Proof.Gen.Kernel.Points
import proofs.«169147_j1915555414566_2_alg».proof.Proof.Gen.Kernel.Frame
import proofs.«169147_j1915555414566_2_alg».proof.Proof.Gen.KernelIdeal
import proofs.«169147_j1915555414566_2_alg».proof.Proof.Gen.KernelIdeal.Skeleton
import proofs.«169147_j1915555414566_2_alg».proof.Proof.Gen.KernelIdeal.Loops
import proofs.«169147_j1915555414566_2_alg».proof.Proof.Gen.KernelIdeal.Launch
import proofs.«169147_j1915555414566_2_alg».proof.Proof.Gen.KernelIdeal.Points
import proofs.«169147_j1915555414566_2_alg».proof.Proof.Gen.KernelIdeal.Frame
import proofs.«169147_j1915555414566_2_alg».proof.Proof.Gen.ReferenceIdeal
import proofs.«169147_j1915555414566_2_alg».proof.Proof.Gen.ReferenceIdeal.Run
import proofs.«169147_j1915555414566_2_alg».proof.Proof.Gen.ReferenceIdeal.Read
import proofs.«169147_j1915555414566_2_alg».proof.Proof.Gen.Pre_finite_inputs
import proofs.«169147_j1915555414566_2_alg».proof.Proof.Spec
import proofs.«169147_j1915555414566_2_alg».proof.Proof.RefValue
import proofs.«169147_j1915555414566_2_alg».proof.Proof.Algebra
import proofs.«169147_j1915555414566_2_alg».proof.Proof.Finite
import proofs.«169147_j1915555414566_2_alg».proof.Proof.RunResult
import proofs.«169147_j1915555414566_2_alg».proof.Proof.KernelValue
import Idealize.ShloMosaic.Adequacy
import Idealize.ShloMosaic.Init

noncomputable section

namespace Cert.Proof.Claims

open Idealize.ShloMosaic Idealize.SL.Sem

/-- The kernel runs and leaves its arguments unchanged: the generated frame. -/
theorem frame_k : Cert.frame_Kernel := fun m ρ _ => Cert.Kernel.Gen.frame m ρ

/-- The idealized kernel runs and leaves its arguments unchanged: the generated frame. -/
theorem frame_ki : Cert.frame_KernelIdeal := fun m ρ _ => Cert.KernelIdeal.Gen.frame m ρ

/-- The reference runs and leaves its arguments unchanged: its generated run, the result's conjunct dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- Over the extended reals, from memories that agree on the nine arguments, both programs run; the kernel's result
    buffer holds the kernel arrangement of the specification, the reference's the reference arrangement of the same
    arrays, and on finite inputs the two arrangements are one array. -/
theorem algebraic : Cert.algebraic_KernelIdeal_ReferenceIdeal := by
  intro m ρ m' ρ' hpre hagree
  refine ⟨fun c => Cert.Spec.kerArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.RunValue.kernel_value m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨f0, f1, f2, f3, f4, f5, f6, f7, f8⟩ := Cert.Finite.real_of_pre m hpre c
    rw [Cert.ReferenceIdeal.Read.val_main_v46_eq, Cert.RefValue.ref_is_spec,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact Cert.Spec.refArr_eq_kerArr _ _ _ _ _ _ _ _ _ f0 f1 f2 f3 f4 f5 f6 f7 f8

end Cert.Proof.Claims

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
